-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x4096 : Shape := ⟨2, ![2048, 4096]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x2048 .f32) (main_arg1 : FVec F S4096x2048 .f32) (main_arg2 : FVec F S4096x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S1x2048 : Shape := ⟨2, ![1, 2048]⟩
abbrev S1024x256 : Shape := ⟨2, ![1024, 256]⟩
abbrev S512x256 : Shape := ⟨2, ![512, 256]⟩
abbrev S1x512 : Shape := ⟨2, ![1, 512]⟩
abbrev S1024x512 : Shape := ⟨2, ![1024, 512]⟩

abbrev nBuf : Space → Nat
  | .hbm => 24
  | .vmem => 28
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x2048, .bf16⟩
  | .hbm, ⟨12, _⟩ => ⟨S4096x2048, .bf16⟩
  | .hbm, ⟨13, _⟩ => ⟨S4096x4096, .bf16⟩
  | .hbm, ⟨14, _⟩ => ⟨S2048x4096, .bf16⟩
  | .hbm, ⟨15, _⟩ => ⟨S2048x4096, .bf16⟩
  | .hbm, ⟨16, _⟩ => ⟨S2048x4096, .bf16⟩
  | .hbm, ⟨17, _⟩ => ⟨S2048x4096, .bf16⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .local _ .vmem, ⟨0, _⟩ => ⟨S1024x256, .bf16⟩
  | .local _ .vmem, ⟨1, _⟩ => ⟨S1024x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1024x512, .f32⟩
  | .local _ .vmem, ⟨25, _⟩ => ⟨S1024x512, .f32⟩
  | .local _ .vmem, ⟨26, _⟩ => ⟨S1024x512, .f32⟩
  | .local _ .vmem, ⟨27, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v37 : BitVec 1 := Scalar.cmpi .eq arg2 c15_i32
  let v38 : BitVec 32 := Scalar.extui v37
  let c0_i32_29 : BitVec 32 := 0#32
  let v39 : BitVec 1 := Scalar.cmpi .ne v38 c0_i32_29
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

class Facts₀ : Prop where
  bitsLt_bf16_f32 : FTy.bits .bf16 < FTy.bits .f32
  concatenates_S4096x2048_S4096x2048_S4096x4096_d1 : Shape.Concatenates [S4096x2048, S4096x2048] S4096x4096 1
  shapeCasts_S2048_S1x2048 : S2048.ShapeCasts S1x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x256_S512x256_S1024x512_1_1_0_0_n_n_wf : DotDims.WF S1024x256 S512x256 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x4096.size a
  hwx0_0 : ∀ i : grid0.Coords, EltTy.bits .bf16 = 32 ∨ (Rect.block (s := S4096x4096) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S2048x4096.size a
  hwx0_1 : ∀ i : grid0.Coords, EltTy.bits .bf16 = 32 ∨ (Rect.block (s := S2048x4096) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S2048x4096.size a
  hwx0_2 : ∀ i : grid0.Coords, EltTy.bits .bf16 = 32 ∨ (Rect.block (s := S2048x4096) S512x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S2048x4096.size a
  hwx0_3 : ∀ i : grid0.Coords, EltTy.bits .bf16 = 32 ∨ (Rect.block (s := S2048x4096) S512x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S2048x4096.size a
  hwx0_4 : ∀ i : grid0.Coords, EltTy.bits .bf16 = 32 ∨ (Rect.block (s := S2048x4096) S512x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x2048.size a
  hwx0_5 : ∀ i : grid0.Coords, EltTy.bits .f32 = 32 ∨ (Rect.block (s := S1x2048) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x2048.size a
  hwx0_6 : ∀ i : grid0.Coords, EltTy.bits .f32 = 32 ∨ (Rect.block (s := S1x2048) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x2048.size a
  hwx0_7 : ∀ i : grid0.Coords, EltTy.bits .f32 = 32 ∨ (Rect.block (s := S1x2048) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x2048.size a
  hwx0_8 : ∀ i : grid0.Coords, EltTy.bits .f32 = 32 ∨ (Rect.block (s := S1x2048) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S4096x2048.size a
  hwx0_9 : ∀ i : grid0.Coords, EltTy.bits .f32 = 32 ∨ (Rect.block (s := S4096x2048) S1024x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S4096x2048.size a
  hwx0_10 : ∀ i : grid0.Coords, EltTy.bits .f32 = 32 ∨ (Rect.block (s := S4096x2048) S1024x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S4096x2048.size a
  hwx0_11 : ∀ i : grid0.Coords, EltTy.bits .f32 = 32 ∨ (Rect.block (s := S4096x2048) S1024x512.size (cc0_transform_11 i) (hinb0_11 i)).WholeWords (EltTy.packing .f32)

variable [Facts₀]

def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf

abbrev win0_0 : Pipeline.Window sig grid0 :=
  Pipeline.Window.ofSpec (Memref.whole main_v2) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S1024x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v11_0) S1024x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v11_1) S1024x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S8192x4096 : Shape := ⟨2, ![8192, 4096]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S8192x4096, .f32⟩
  | .hbm, ⟨13, _⟩ => ⟨S8192, .f32⟩
  | .hbm, ⟨14, _⟩ => ⟨S4096x8192, .f32⟩
  | .hbm, ⟨15, _⟩ => ⟨S4096x8192, .f32⟩
  | .hbm, ⟨16, _⟩ => ⟨S1x8192, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  transposes_S8192x4096_S4096x8192_1_0 : S8192x4096.Transposes [1, 0] S4096x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.Pieces.lean ====
/-
  What one grid point leaves behind, as the body's own arithmetic.

  The body runs at a grid point (i, j, k) on one 1024 x 256 block of activations, one 512 x 256 block of each
  gate's weights, and four 1024 x 512 accumulators that live across the sixteen points k = 0 .. 15 of a tile (i, j).
  At every point each accumulator ends at  (what it held) + (activation block) x (weight block)^T ; at k = 0 "what it
  held" is the zero block the point has just stored.  At k = 15 the two output blocks are written from the four
  finished accumulators, the four bias rows and the old cell block.  Each statement below says that a buffer's
  final contents — the last covering store read back — are that arithmetic term of the point's input blocks.
-/
import proofs.«150020_j16269336118035_2_alg».proof.Proof.Gen.KernelIdeal.Frame
import Idealize.ShloMosaic.Lib.Pipeline.Value
import Idealize.ShloMosaic.Lib.Tactic
set_option maxRecDepth 16384

noncomputable section

open Idealize.ShloMosaic Idealize.ShloMosaic.TcCoe Idealize.SL.Sem

namespace Cert.KernelIdeal.Cell

open Cert.KernelIdeal Cert.KernelIdeal.Gen Idealize.ShloMosaic.Tactic

variable {F : FTy → Type} [FloatOps F]

theorem hz : (![0, 0] : Fin 2 → Nat) = fun _ => 0 := funext fun a => by fin_cases a <;> rfl

/-- First point of a tile: accumulator 0 ends at the zero block plus the block product. -/
theorem first_acc0 (c : Dev nD) (i : grid0.Coords) (arg3 : Memref sig .tc .vmem S1024x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : cond0_0 i) (hc1 : ¬cond0_1 i) (x0 : Vec F S1024x256 .bf16) (x1 : Vec F S512x256 .bf16) (x2 : Vec F S512x256 .bf16) (x3 : Vec F S512x256 .bf16) (x4 : Vec F S512x256 .bf16) (x5 : Vec F S1x512 .f32) (x6 : Vec F S1x512 .f32) (x7 : Vec F S1x512 .f32) (x8 : Vec F S1x512 .f32) (x9 : Vec F S1024x512 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 = k0_pay9 x0 k0_pay4 x1 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  try sl_unfold_words
  first
    | rw [View.canon_cons_unit_zero (S := S1024x512) hz]
    | rw [View.canon_unit_zero hz]
  simp only [View.readCov_unit_zero (S := S1024x512) _ hz, View.readAt_eq_ld, harg3.read_unread, harg4.read_unread, View.ld_unit_zero (S := S1024x256) hz, View.ld_unit_zero (S := S1024x512) hz, View.ld_unit_zero (S := S512x256) hz, View.ld_unit_zero (S := S1x512) hz]

/-- A middle point: accumulator 0 ends at what it held plus the block product. -/
theorem mid_acc0 (c : Dev nD) (i : grid0.Coords) (arg3 : Memref sig .tc .vmem S1024x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : ¬cond0_0 i) (hc1 : ¬cond0_1 i) (x0 : Vec F S1024x256 .bf16) (x1 : Vec F S512x256 .bf16) (x2 : Vec F S512x256 .bf16) (x3 : Vec F S512x256 .bf16) (x4 : Vec F S512x256 .bf16) (x5 : Vec F S1x512 .f32) (x6 : Vec F S1x512 .f32) (x7 : Vec F S1x512 .f32) (x8 : Vec F S1x512 .f32) (x9 : Vec F S1024x512 .f32) (xs0 xs1 xs2 xs3 : Vec F S1024x512 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay9 x0 xs0 x1 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  try sl_unfold_words
  first
    | rw [View.canon_cons_unit_zero (S := S1024x512) hz]
    | rw [View.canon_unit_zero hz]
  simp only [View.readCov_unit_zero (S := S1024x512) _ hz, View.readAt_eq_ld, harg3.read_unread, harg4.read_unread, harg15.read_unread, View.ld_unit_zero (S := S1024x256) hz, View.ld_unit_zero (S := S1024x512) hz, View.ld_unit_zero (S := S512x256) hz, View.ld_unit_zero (S := S1x512) hz]

/-- The last point of a tile: accumulator 0 likewise. -/
theorem last_acc0 (c : Dev nD) (i : grid0.Coords) (arg3 : Memref sig .tc .vmem S1024x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : ¬cond0_0 i) (hc1 : cond0_1 i) (x0 : Vec F S1024x256 .bf16) (x1 : Vec F S512x256 .bf16) (x2 : Vec F S512x256 .bf16) (x3 : Vec F S512x256 .bf16) (x4 : Vec F S512x256 .bf16) (x5 : Vec F S1x512 .f32) (x6 : Vec F S1x512 .f32) (x7 : Vec F S1x512 .f32) (x8 : Vec F S1x512 .f32) (x9 : Vec F S1024x512 .f32) (xs0 xs1 xs2 xs3 : Vec F S1024x512 .f32) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay9 x0 xs0 x1 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  try sl_unfold_words
  first
    | rw [View.canon_cons_unit_zero (S := S1024x512) hz]
    | rw [View.canon_unit_zero hz]
  simp only [View.readCov_unit_zero (S := S1024x512) _ hz, View.readAt_eq_ld, harg3.read_unread, harg4.read_unread, harg15.read_unread, View.ld_unit_zero (S := S1024x256) hz, View.ld_unit_zero (S := S1024x512) hz, View.ld_unit_zero (S := S512x256) hz, View.ld_unit_zero (S := S1x512) hz]

/-- First point of a tile: accumulator 1 ends at the zero block plus the block product. -/
theorem first_acc1 (c : Dev nD) (i : grid0.Coords) (arg3 : Memref sig .tc .vmem S1024x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : cond0_0 i) (hc1 : ¬cond0_1 i) (x0 : Vec F S1024x256 .bf16) (x1 : Vec F S512x256 .bf16) (x2 : Vec F S512x256 .bf16) (x3 : Vec F S512x256 .bf16) (x4 : Vec F S512x256 .bf16) (x5 : Vec F S1x512 .f32) (x6 : Vec F S1x512 .f32) (x7 : Vec F S1x512 .f32) (x8 : Vec F S1x512 .f32) (x9 : Vec F S1024x512 .f32) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 = k0_pay10 x0 k0_pay5 x2 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  try sl_unfold_words
  first
    | rw [View.canon_cons_unit_zero (S := S1024x512) hz]
    | rw [View.canon_unit_zero hz]
  simp only [View.readCov_unit_zero (S := S1024x512) _ hz, View.readAt_eq_ld, harg3.read_unread, harg5.read_unread, View.ld_unit_zero (S := S1024x256) hz, View.ld_unit_zero (S := S1024x512) hz, View.ld_unit_zero (S := S512x256) hz, View.ld_unit_zero (S := S1x512) hz]

/-- A middle point: accumulator 1 ends at what it held plus the block product. -/
theorem mid_acc1 (c : Dev nD) (i : grid0.Coords) (arg3 : Memref sig .tc .vmem S1024x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : ¬cond0_0 i) (hc1 : ¬cond0_1 i) (x0 : Vec F S1024x256 .bf16) (x1 : Vec F S512x256 .bf16) (x2 : Vec F S512x256 .bf16) (x3 : Vec F S512x256 .bf16) (x4 : Vec F S512x256 .bf16) (x5 : Vec F S1x512 .f32) (x6 : Vec F S1x512 .f32) (x7 : Vec F S1x512 .f32) (x8 : Vec F S1x512 .f32) (x9 : Vec F S1024x512 .f32) (xs0 xs1 xs2 xs3 : Vec F S1024x512 .f32) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay10 x0 xs1 x2 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  try sl_unfold_words
  first
    | rw [View.canon_cons_unit_zero (S := S1024x512) hz]
    | rw [View.canon_unit_zero hz]
  simp only [View.readCov_unit_zero (S := S1024x512) _ hz, View.readAt_eq_ld, harg3.read_unread, harg5.read_unread, harg16.read_unread, View.ld_unit_zero (S := S1024x256) hz, View.ld_unit_zero (S := S1024x512) hz, View.ld_unit_zero (S := S512x256) hz, View.ld_unit_zero (S := S1x512) hz]

/-- The last point of a tile: accumulator 1 likewise. -/
theorem last_acc1 (c : Dev nD) (i : grid0.Coords) (arg3 : Memref sig .tc .vmem S1024x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : ¬cond0_0 i) (hc1 : cond0_1 i) (x0 : Vec F S1024x256 .bf16) (x1 : Vec F S512x256 .bf16) (x2 : Vec F S512x256 .bf16) (x3 : Vec F S512x256 .bf16) (x4 : Vec F S512x256 .bf16) (x5 : Vec F S1x512 .f32) (x6 : Vec F S1x512 .f32) (x7 : Vec F S1x512 .f32) (x8 : Vec F S1x512 .f32) (x9 : Vec F S1024x512 .f32) (xs0 xs1 xs2 xs3 : Vec F S1024x512 .f32) :
    sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay10 x0 xs1 x2 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  try sl_unfold_words
  first
    | rw [View.canon_cons_unit_zero (S := S1024x512) hz]
    | rw [View.canon_unit_zero hz]
  simp only [View.readCov_unit_zero (S := S1024x512) _ hz, View.readAt_eq_ld, harg3.read_unread, harg5.read_unread, harg16.read_unread, View.ld_unit_zero (S := S1024x256) hz, View.ld_unit_zero (S := S1024x512) hz, View.ld_unit_zero (S := S512x256) hz, View.ld_unit_zero (S := S1x512) hz]

/-- First point of a tile: accumulator 2 ends at the zero block plus the block product. -/
theorem first_acc2 (c : Dev nD) (i : grid0.Coords) (arg3 : Memref sig .tc .vmem S1024x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : cond0_0 i) (hc1 : ¬cond0_1 i) (x0 : Vec F S1024x256 .bf16) (x1 : Vec F S512x256 .bf16) (x2 : Vec F S512x256 .bf16) (x3 : Vec F S512x256 .bf16) (x4 : Vec F S512x256 .bf16) (x5 : Vec F S1x512 .f32) (x6 : Vec F S1x512 .f32) (x7 : Vec F S1x512 .f32) (x8 : Vec F S1x512 .f32) (x9 : Vec F S1024x512 .f32) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 = k0_pay11 x0 k0_pay6 x3 := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  try sl_unfold_words
  first
    | rw [View.canon_cons_unit_zero (S := S1024x512) hz]
    | rw [View.canon_unit_zero hz]
  simp only [View.readCov_unit_zero (S := S1024x512) _ hz, View.readAt_eq_ld, harg3.read_unread, harg6.read_unread, View.ld_unit_zero (S := S1024x256) hz, View.ld_unit_zero (S := S1024x512) hz, View.ld_unit_zero (S := S512x256) hz, View.ld_unit_zero (S := S1x512) hz]

/-- A middle point: accumulator 2 ends at what it held plus the block product. -/
theorem mid_acc2 (c : Dev nD) (i : grid0.Coords) (arg3 : Memref sig .tc .vmem S1024x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : ¬cond0_0 i) (hc1 : ¬cond0_1 i) (x0 : Vec F S1024x256 .bf16) (x1 : Vec F S512x256 .bf16) (x2 : Vec F S512x256 .bf16) (x3 : Vec F S512x256 .bf16) (x4 : Vec F S512x256 .bf16) (x5 : Vec F S1x512 .f32) (x6 : Vec F S1x512 .f32) (x7 : Vec F S1x512 .f32) (x8 : Vec F S1x512 .f32) (x9 : Vec F S1024x512 .f32) (xs0 xs1 xs2 xs3 : Vec F S1024x512 .f32) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay11 x0 xs2 x3 := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  try sl_unfold_words
  first
    | rw [View.canon_cons_unit_zero (S := S1024x512) hz]
    | rw [View.canon_unit_zero hz]
  simp only [View.readCov_unit_zero (S := S1024x512) _ hz, View.readAt_eq_ld, harg3.read_unread, harg6.read_unread, harg17.read_unread, View.ld_unit_zero (S := S1024x256) hz, View.ld_unit_zero (S := S1024x512) hz, View.ld_unit_zero (S := S512x256) hz, View.ld_unit_zero (S := S1x512) hz]

/-- The last point of a tile: accumulator 2 likewise. -/
theorem last_acc2 (c : Dev nD) (i : grid0.Coords) (arg3 : Memref sig .tc .vmem S1024x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : ¬cond0_0 i) (hc1 : cond0_1 i) (x0 : Vec F S1024x256 .bf16) (x1 : Vec F S512x256 .bf16) (x2 : Vec F S512x256 .bf16) (x3 : Vec F S512x256 .bf16) (x4 : Vec F S512x256 .bf16) (x5 : Vec F S1x512 .f32) (x6 : Vec F S1x512 .f32) (x7 : Vec F S1x512 .f32) (x8 : Vec F S1x512 .f32) (x9 : Vec F S1024x512 .f32) (xs0 xs1 xs2 xs3 : Vec F S1024x512 .f32) :
    sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay11 x0 xs2 x3 := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  try sl_unfold_words
  first
    | rw [View.canon_cons_unit_zero (S := S1024x512) hz]
    | rw [View.canon_unit_zero hz]
  simp only [View.readCov_unit_zero (S := S1024x512) _ hz, View.readAt_eq_ld, harg3.read_unread, harg6.read_unread, harg17.read_unread, View.ld_unit_zero (S := S1024x256) hz, View.ld_unit_zero (S := S1024x512) hz, View.ld_unit_zero (S := S512x256) hz, View.ld_unit_zero (S := S1x512) hz]

/-- First point of a tile: accumulator 3 ends at the zero block plus the block product. -/
theorem first_acc3 (c : Dev nD) (i : grid0.Coords) (arg3 : Memref sig .tc .vmem S1024x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : cond0_0 i) (hc1 : ¬cond0_1 i) (x0 : Vec F S1024x256 .bf16) (x1 : Vec F S512x256 .bf16) (x2 : Vec F S512x256 .bf16) (x3 : Vec F S512x256 .bf16) (x4 : Vec F S512x256 .bf16) (x5 : Vec F S1x512 .f32) (x6 : Vec F S1x512 .f32) (x7 : Vec F S1x512 .f32) (x8 : Vec F S1x512 .f32) (x9 : Vec F S1024x512 .f32) :
    sout0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 = k0_pay1 (k0_pay8 x0) k0_pay7 x4 := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  try sl_unfold_words
  first
    | rw [View.canon_cons_unit_zero (S := S1024x512) hz]
    | rw [View.canon_unit_zero hz]
  simp only [View.readCov_unit_zero (S := S1024x512) _ hz, View.readAt_eq_ld, harg3.read_unread, harg7.read_unread, View.ld_unit_zero (S := S1024x256) hz, View.ld_unit_zero (S := S1024x512) hz, View.ld_unit_zero (S := S512x256) hz, View.ld_unit_zero (S := S1x512) hz]

/-- A middle point: accumulator 3 ends at what it held plus the block product. -/
theorem mid_acc3 (c : Dev nD) (i : grid0.Coords) (arg3 : Memref sig .tc .vmem S1024x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : ¬cond0_0 i) (hc1 : ¬cond0_1 i) (x0 : Vec F S1024x256 .bf16) (x1 : Vec F S512x256 .bf16) (x2 : Vec F S512x256 .bf16) (x3 : Vec F S512x256 .bf16) (x4 : Vec F S512x256 .bf16) (x5 : Vec F S1x512 .f32) (x6 : Vec F S1x512 .f32) (x7 : Vec F S1x512 .f32) (x8 : Vec F S1x512 .f32) (x9 : Vec F S1024x512 .f32) (xs0 xs1 xs2 xs3 : Vec F S1024x512 .f32) :
    sout0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay1 (k0_pay8 x0) xs3 x4 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  try sl_unfold_words
  first
    | rw [View.canon_cons_unit_zero (S := S1024x512) hz]
    | rw [View.canon_unit_zero hz]
  simp only [View.readCov_unit_zero (S := S1024x512) _ hz, View.readAt_eq_ld, harg3.read_unread, harg7.read_unread, harg18.read_unread, View.ld_unit_zero (S := S1024x256) hz, View.ld_unit_zero (S := S1024x512) hz, View.ld_unit_zero (S := S512x256) hz, View.ld_unit_zero (S := S1x512) hz]

/-- The last point of a tile: accumulator 3 likewise. -/
theorem last_acc3 (c : Dev nD) (i : grid0.Coords) (arg3 : Memref sig .tc .vmem S1024x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : ¬cond0_0 i) (hc1 : cond0_1 i) (x0 : Vec F S1024x256 .bf16) (x1 : Vec F S512x256 .bf16) (x2 : Vec F S512x256 .bf16) (x3 : Vec F S512x256 .bf16) (x4 : Vec F S512x256 .bf16) (x5 : Vec F S1x512 .f32) (x6 : Vec F S1x512 .f32) (x7 : Vec F S1x512 .f32) (x8 : Vec F S1x512 .f32) (x9 : Vec F S1024x512 .f32) (xs0 xs1 xs2 xs3 : Vec F S1024x512 .f32) :
    sout0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay1 (k0_pay8 x0) xs3 x4 := by
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  try sl_unfold_words
  first
    | rw [View.canon_cons_unit_zero (S := S1024x512) hz]
    | rw [View.canon_unit_zero hz]
  simp only [View.readCov_unit_zero (S := S1024x512) _ hz, View.readAt_eq_ld, harg3.read_unread, harg7.read_unread, harg18.read_unread, View.ld_unit_zero (S := S1024x256) hz, View.ld_unit_zero (S := S1024x512) hz, View.ld_unit_zero (S := S512x256) hz, View.ld_unit_zero (S := S1x512) hz]

/-- The last point of a tile writes the hidden block from the four finished accumulators, the bias rows and the old
    cell block. -/
theorem last_hidden (c : Dev nD) (i : grid0.Coords) (arg3 : Memref sig .tc .vmem S1024x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : ¬cond0_0 i) (hc1 : cond0_1 i) (x0 : Vec F S1024x256 .bf16) (x1 : Vec F S512x256 .bf16) (x2 : Vec F S512x256 .bf16) (x3 : Vec F S512x256 .bf16) (x4 : Vec F S512x256 .bf16) (x5 : Vec F S1x512 .f32) (x6 : Vec F S1x512 .f32) (x7 : Vec F S1x512 .f32) (x8 : Vec F S1x512 .f32) (x9 : Vec F S1024x512 .f32) (xs0 xs1 xs2 xs3 : Vec F S1024x512 .f32) :
    out0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay3 (k0_pay9 x0 xs0 x1) x5 (k0_pay10 x0 xs1 x2) x6 (k0_pay11 x0 xs2 x3) x7 (k0_pay1 (k0_pay8 x0) xs3 x4) x8 x9 := by
  unfold out0_C_10
  rw [View.read_writes_eq_canon _ _ _ (cover0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  try sl_unfold_words
  first
    | rw [View.canon_cons_unit_zero (S := S1024x512) hz]
    | rw [View.canon_unit_zero hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x256) hz, View.ld_unit_zero (S := S1024x512) hz, View.ld_unit_zero (S := S512x256) hz, View.ld_unit_zero (S := S1x512) hz]

/-- … and the cell block. -/
theorem last_cell (c : Dev nD) (i : grid0.Coords) (arg3 : Memref sig .tc .vmem S1024x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : ¬cond0_0 i) (hc1 : cond0_1 i) (x0 : Vec F S1024x256 .bf16) (x1 : Vec F S512x256 .bf16) (x2 : Vec F S512x256 .bf16) (x3 : Vec F S512x256 .bf16) (x4 : Vec F S512x256 .bf16) (x5 : Vec F S1x512 .f32) (x6 : Vec F S1x512 .f32) (x7 : Vec F S1x512 .f32) (x8 : Vec F S1x512 .f32) (x9 : Vec F S1024x512 .f32) (xs0 xs1 xs2 xs3 : Vec F S1024x512 .f32) :
    out0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay2 (k0_pay9 x0 xs0 x1) x5 (k0_pay10 x0 xs1 x2) x6 (k0_pay1 (k0_pay8 x0) xs3 x4) x8 x9 := by
  unfold out0_C_11
  rw [View.read_writes_eq_canon _ _ _ (cover0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  try sl_unfold_words
  first
    | rw [View.canon_cons_unit_zero (S := S1024x512) hz]
    | rw [View.canon_unit_zero hz]
  simp only [View.readCov_unit_zero (S := S1024x512) _ hz, View.readAt_eq_ld, harg3.read_unread, harg4.read_unread, harg5.read_unread, harg7.read_unread, harg8.read_unread, harg9.read_unread, harg11.read_unread, harg12.read_unread, harg15.read_unread, harg16.read_unread, harg18.read_unread, View.ld_unit_zero (S := S1024x256) hz, View.ld_unit_zero (S := S1024x512) hz, View.ld_unit_zero (S := S512x256) hz, View.ld_unit_zero (S := S1x512) hz]

end Cert.KernelIdeal.Cell

end
-- ==== Proof.Points.lean ====
/-
  The accumulators and the outputs, point by point.

  Along the sixteen points of a tile an accumulator is reset-and-added-to at the first point (t mod 16 = 0) and added
  to at every later one; at the last point (t mod 16 = 15) the two output blocks are computed from the accumulators
  as that same point has just left them.  These are the recurrences the sums below are read from.
-/
import proofs.«150020_j16269336118035_2_alg».proof.Proof.Pieces
set_option maxRecDepth 16384

noncomputable section

open Idealize.ShloMosaic Idealize.ShloMosaic.TcCoe Idealize.SL.Sem

namespace Cert.KernelIdeal.Cell

open Cert.KernelIdeal Cert.KernelIdeal.Gen

variable {F : FTy → Type} [FloatOps F]
variable (m : (ℓ : Loc nD τ sig) → Buf (Elt F) ℓ)

/-- Accumulator 0 after the first point of a tile. -/
theorem acc0_first (c : Dev nD) (t : Fin cfg0.N) (h0 : t.val % 16 = 0) :
    (outsAt0 m c t.val t.isLt).2.2.1 = k0_pay9 (iblk m c 0 t) k0_pay4 (iblk m c 1 t) := by
  have h1 : ¬t.val % 16 = 15 := by omega
  refine Eq.trans ?_ (first_acc0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t))
  rw [outsAt0_A m c t h0 h1]

/-- Accumulator 0 after a later point of a tile, over what the point before left. -/
theorem acc0_next (c : Dev nD) (t : Fin cfg0.N) (h0 : ¬t.val % 16 = 0) :
    (outsAt0 m c t.val t.isLt).2.2.1 = k0_pay9 (iblk m c 0 t) (outsAt0 m c (t.val - 1) (Nat.lt_of_le_of_lt (Nat.sub_le _ _) t.isLt)).2.2.1 (iblk m c 1 t) := by
  by_cases h1 : t.val % 16 = 15
  · refine Eq.trans ?_ (last_acc0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
    rw [outsAt0_C m c t h0 h1]
  · refine Eq.trans ?_ (mid_acc0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
    rw [outsAt0_B m c t h0 h1]

/-- Accumulator 1 after the first point of a tile. -/
theorem acc1_first (c : Dev nD) (t : Fin cfg0.N) (h0 : t.val % 16 = 0) :
    (outsAt0 m c t.val t.isLt).2.2.2.1 = k0_pay10 (iblk m c 0 t) k0_pay5 (iblk m c 2 t) := by
  have h1 : ¬t.val % 16 = 15 := by omega
  refine Eq.trans ?_ (first_acc1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t))
  rw [outsAt0_A m c t h0 h1]

/-- Accumulator 1 after a later point of a tile, over what the point before left. -/
theorem acc1_next (c : Dev nD) (t : Fin cfg0.N) (h0 : ¬t.val % 16 = 0) :
    (outsAt0 m c t.val t.isLt).2.2.2.1 = k0_pay10 (iblk m c 0 t) (outsAt0 m c (t.val - 1) (Nat.lt_of_le_of_lt (Nat.sub_le _ _) t.isLt)).2.2.2.1 (iblk m c 2 t) := by
  by_cases h1 : t.val % 16 = 15
  · refine Eq.trans ?_ (last_acc1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
    rw [outsAt0_C m c t h0 h1]
  · refine Eq.trans ?_ (mid_acc1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
    rw [outsAt0_B m c t h0 h1]

/-- Accumulator 2 after the first point of a tile. -/
theorem acc2_first (c : Dev nD) (t : Fin cfg0.N) (h0 : t.val % 16 = 0) :
    (outsAt0 m c t.val t.isLt).2.2.2.2.1 = k0_pay11 (iblk m c 0 t) k0_pay6 (iblk m c 3 t) := by
  have h1 : ¬t.val % 16 = 15 := by omega
  refine Eq.trans ?_ (first_acc2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t))
  rw [outsAt0_A m c t h0 h1]

/-- Accumulator 2 after a later point of a tile, over what the point before left. -/
theorem acc2_next (c : Dev nD) (t : Fin cfg0.N) (h0 : ¬t.val % 16 = 0) :
    (outsAt0 m c t.val t.isLt).2.2.2.2.1 = k0_pay11 (iblk m c 0 t) (outsAt0 m c (t.val - 1) (Nat.lt_of_le_of_lt (Nat.sub_le _ _) t.isLt)).2.2.2.2.1 (iblk m c 3 t) := by
  by_cases h1 : t.val % 16 = 15
  · refine Eq.trans ?_ (last_acc2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
    rw [outsAt0_C m c t h0 h1]
  · refine Eq.trans ?_ (mid_acc2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
    rw [outsAt0_B m c t h0 h1]

/-- Accumulator 3 after the first point of a tile. -/
theorem acc3_first (c : Dev nD) (t : Fin cfg0.N) (h0 : t.val % 16 = 0) :
    (outsAt0 m c t.val t.isLt).2.2.2.2.2 = k0_pay1 (k0_pay8 (iblk m c 0 t)) k0_pay7 (iblk m c 4 t) := by
  have h1 : ¬t.val % 16 = 15 := by omega
  refine Eq.trans ?_ (first_acc3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t))
  rw [outsAt0_A m c t h0 h1]

/-- Accumulator 3 after a later point of a tile, over what the point before left. -/
theorem acc3_next (c : Dev nD) (t : Fin cfg0.N) (h0 : ¬t.val % 16 = 0) :
    (outsAt0 m c t.val t.isLt).2.2.2.2.2 = k0_pay1 (k0_pay8 (iblk m c 0 t)) (outsAt0 m c (t.val - 1) (Nat.lt_of_le_of_lt (Nat.sub_le _ _) t.isLt)).2.2.2.2.2 (iblk m c 4 t) := by
  by_cases h1 : t.val % 16 = 15
  · refine Eq.trans ?_ (last_acc3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
    rw [outsAt0_C m c t h0 h1]
  · refine Eq.trans ?_ (mid_acc3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
    rw [outsAt0_B m c t h0 h1]

/-- The same recurrence, with the point written n + 1 and the point before it n. -/
theorem acc0_succ (c : Dev nD) (n : ℕ) (hn : n + 1 < cfg0.N) (h0 : ¬(n + 1) % 16 = 0) :
    (outsAt0 m c (n + 1) hn).2.2.1 = k0_pay9 (iblk m c 0 ⟨n + 1, hn⟩) (outsAt0 m c n (Nat.lt_of_succ_lt hn)).2.2.1 (iblk m c 1 ⟨n + 1, hn⟩) :=
  acc0_next m c ⟨n + 1, hn⟩ h0

/-- The same recurrence, with the point written n + 1 and the point before it n. -/
theorem acc1_succ (c : Dev nD) (n : ℕ) (hn : n + 1 < cfg0.N) (h0 : ¬(n + 1) % 16 = 0) :
    (outsAt0 m c (n + 1) hn).2.2.2.1 = k0_pay10 (iblk m c 0 ⟨n + 1, hn⟩) (outsAt0 m c n (Nat.lt_of_succ_lt hn)).2.2.2.1 (iblk m c 2 ⟨n + 1, hn⟩) :=
  acc1_next m c ⟨n + 1, hn⟩ h0

/-- The same recurrence, with the point written n + 1 and the point before it n. -/
theorem acc2_succ (c : Dev nD) (n : ℕ) (hn : n + 1 < cfg0.N) (h0 : ¬(n + 1) % 16 = 0) :
    (outsAt0 m c (n + 1) hn).2.2.2.2.1 = k0_pay11 (iblk m c 0 ⟨n + 1, hn⟩) (outsAt0 m c n (Nat.lt_of_succ_lt hn)).2.2.2.2.1 (iblk m c 3 ⟨n + 1, hn⟩) :=
  acc2_next m c ⟨n + 1, hn⟩ h0

/-- The same recurrence, with the point written n + 1 and the point before it n. -/
theorem acc3_succ (c : Dev nD) (n : ℕ) (hn : n + 1 < cfg0.N) (h0 : ¬(n + 1) % 16 = 0) :
    (outsAt0 m c (n + 1) hn).2.2.2.2.2 = k0_pay1 (k0_pay8 (iblk m c 0 ⟨n + 1, hn⟩)) (outsAt0 m c n (Nat.lt_of_succ_lt hn)).2.2.2.2.2 (iblk m c 4 ⟨n + 1, hn⟩) :=
  acc3_next m c ⟨n + 1, hn⟩ h0

/-- The hidden block the last point of a tile leaves, from the accumulators as that point leaves them. -/
theorem hidden_last (c : Dev nD) (t : Fin cfg0.N) (h1 : t.val % 16 = 15) :
    (outsAt0 m c t.val t.isLt).1 = k0_pay3 ((outsAt0 m c t.val t.isLt).2.2.1) (iblk m c 5 t) ((outsAt0 m c t.val t.isLt).2.2.2.1) (iblk m c 6 t) ((outsAt0 m c t.val t.isLt).2.2.2.2.1) (iblk m c 7 t) ((outsAt0 m c t.val t.isLt).2.2.2.2.2) (iblk m c 8 t) (iblk m c 9 t) := by
  have h0 : ¬t.val % 16 = 0 := by omega
  rw [acc0_next m c t h0, acc1_next m c t h0, acc2_next m c t h0, acc3_next m c t h0]
  refine Eq.trans ?_ (last_hidden c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
  rw [outsAt0_C m c t h0 h1]

/-- The cell block the last point of a tile leaves. -/
theorem cell_last (c : Dev nD) (t : Fin cfg0.N) (h1 : t.val % 16 = 15) :
    (outsAt0 m c t.val t.isLt).2.1 = k0_pay2 ((outsAt0 m c t.val t.isLt).2.2.1) (iblk m c 5 t) ((outsAt0 m c t.val t.isLt).2.2.2.1) (iblk m c 6 t) ((outsAt0 m c t.val t.isLt).2.2.2.2.2) (iblk m c 8 t) (iblk m c 9 t) := by
  have h0 : ¬t.val % 16 = 0 := by omega
  rw [acc0_next m c t h0, acc1_next m c t h0, acc3_next m c t h0]
  refine Eq.trans ?_ (last_cell c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
  rw [outsAt0_C m c t h0 h1]

end Cert.KernelIdeal.Cell

end
-- ==== Proof.Blocks.lean ====
/-
  Where each block sits in its array.

  The grid is 4 x 4 x 16 and its points are numbered row-major: point t is (i, j, k) with i = t / 64, j = (t / 16) mod 4,
  k = t mod 16.  At that point the activation block is rows 1024 i .. and columns 256 k .. of the 4096 x 4096
  activations; each gate's weight block is rows 512 j .. and columns 256 k .. of its 2048 x 4096 matrix; each bias block
  is columns 512 j .. of the bias laid out as one row; the old cell block, and the two output blocks, are rows 1024 i ..
  and columns 512 j .. of their 4096 x 2048 arrays.  Each block read at an entry is therefore the array read at the
  entry's coordinates shifted by the block's origin.
-/
import proofs.«150020_j16269336118035_2_alg».proof.Proof.Gen.KernelIdeal.Frame
import Idealize.ShloMosaic.Lib.Pipeline.Value
import Idealize.ShloMosaic.Lib.Tactic
set_option maxRecDepth 16384

noncomputable section

open Idealize.ShloMosaic Idealize.ShloMosaic.TcCoe Idealize.SL.Sem

namespace Cert.KernelIdeal.Cell

open Cert.KernelIdeal Cert.KernelIdeal.Gen

variable {F : FTy → Type} [FloatOps F]
variable (m : (ℓ : Loc nD τ sig) → Buf (Elt F) ℓ)

/-- Window 0's block index at point t. -/
theorem index_x : ∀ t : Fin cfg0.N, win0_0.index t (0 : Fin 2) = t.val / 64 ∧ win0_0.index t (1 : Fin 2) = t.val % 16 :=
  (by decide +kernel : ∀ t : Fin grid0.N, _)

/-- Window 0's block at point t, read at an entry: the array at the shifted coordinates. -/
theorem blk0_apply (c : Dev nD) (t : Fin cfg0.N) (y : S1024x256.Idx) (I : S4096x4096.Idx)
    (h0 : (I 0).val = 1024 * (t.val / 64) + (y 0).val) (h1 : (I 1).val = 256 * (t.val % 16) + (y 1).val) :
    (iblk m c 0 t : Vec F S1024x256 .bf16) y = V m c main_v2 I := by
  unfold iblk
  rw [View.read_apply]
  show V m c main_v2 _ = V m c main_v2 I
  congr 1
  funext a
  apply Fin.ext
  match a with
  | ⟨0, _⟩ => show win0_0.index t 0 * 1024 + 1 * (y 0).val = (I 0).val; rw [(index_x t).1, h0]; omega
  | ⟨1, _⟩ => show win0_0.index t 1 * 256 + 1 * (y 1).val = (I 1).val; rw [(index_x t).2, h1]; omega

/-- Window 1's block index at point t. -/
theorem index_w1 : ∀ t : Fin cfg0.N, win0_1.index t (0 : Fin 2) = t.val / 16 % 4 ∧ win0_1.index t (1 : Fin 2) = t.val % 16 :=
  (by decide +kernel : ∀ t : Fin grid0.N, _)

/-- Window 1's block at point t, read at an entry: the array at the shifted coordinates. -/
theorem blk1_apply (c : Dev nD) (t : Fin cfg0.N) (y : S512x256.Idx) (I : S2048x4096.Idx)
    (h0 : (I 0).val = 512 * (t.val / 16 % 4) + (y 0).val) (h1 : (I 1).val = 256 * (t.val % 16) + (y 1).val) :
    (iblk m c 1 t : Vec F S512x256 .bf16) y = V m c main_v3 I := by
  unfold iblk
  rw [View.read_apply]
  show V m c main_v3 _ = V m c main_v3 I
  congr 1
  funext a
  apply Fin.ext
  match a with
  | ⟨0, _⟩ => show win0_1.index t 0 * 512 + 1 * (y 0).val = (I 0).val; rw [(index_w1 t).1, h0]; omega
  | ⟨1, _⟩ => show win0_1.index t 1 * 256 + 1 * (y 1).val = (I 1).val; rw [(index_w1 t).2, h1]; omega

/-- Window 2's block index at point t. -/
theorem index_w2 : ∀ t : Fin cfg0.N, win0_2.index t (0 : Fin 2) = t.val / 16 % 4 ∧ win0_2.index t (1 : Fin 2) = t.val % 16 :=
  (by decide +kernel : ∀ t : Fin grid0.N, _)

/-- Window 2's block at point t, read at an entry: the array at the shifted coordinates. -/
theorem blk2_apply (c : Dev nD) (t : Fin cfg0.N) (y : S512x256.Idx) (I : S2048x4096.Idx)
    (h0 : (I 0).val = 512 * (t.val / 16 % 4) + (y 0).val) (h1 : (I 1).val = 256 * (t.val % 16) + (y 1).val) :
    (iblk m c 2 t : Vec F S512x256 .bf16) y = V m c main_v4 I := by
  unfold iblk
  rw [View.read_apply]
  show V m c main_v4 _ = V m c main_v4 I
  congr 1
  funext a
  apply Fin.ext
  match a with
  | ⟨0, _⟩ => show win0_2.index t 0 * 512 + 1 * (y 0).val = (I 0).val; rw [(index_w2 t).1, h0]; omega
  | ⟨1, _⟩ => show win0_2.index t 1 * 256 + 1 * (y 1).val = (I 1).val; rw [(index_w2 t).2, h1]; omega

/-- Window 3's block index at point t. -/
theorem index_w3 : ∀ t : Fin cfg0.N, win0_3.index t (0 : Fin 2) = t.val / 16 % 4 ∧ win0_3.index t (1 : Fin 2) = t.val % 16 :=
  (by decide +kernel : ∀ t : Fin grid0.N, _)

/-- Window 3's block at point t, read at an entry: the array at the shifted coordinates. -/
theorem blk3_apply (c : Dev nD) (t : Fin cfg0.N) (y : S512x256.Idx) (I : S2048x4096.Idx)
    (h0 : (I 0).val = 512 * (t.val / 16 % 4) + (y 0).val) (h1 : (I 1).val = 256 * (t.val % 16) + (y 1).val) :
    (iblk m c 3 t : Vec F S512x256 .bf16) y = V m c main_v5 I := by
  unfold iblk
  rw [View.read_apply]
  show V m c main_v5 _ = V m c main_v5 I
  congr 1
  funext a
  apply Fin.ext
  match a with
  | ⟨0, _⟩ => show win0_3.index t 0 * 512 + 1 * (y 0).val = (I 0).val; rw [(index_w3 t).1, h0]; omega
  | ⟨1, _⟩ => show win0_3.index t 1 * 256 + 1 * (y 1).val = (I 1).val; rw [(index_w3 t).2, h1]; omega

/-- Window 4's block index at point t. -/
theorem index_w4 : ∀ t : Fin cfg0.N, win0_4.index t (0 : Fin 2) = t.val / 16 % 4 ∧ win0_4.index t (1 : Fin 2) = t.val % 16 :=
  (by decide +kernel : ∀ t : Fin grid0.N, _)

/-- Window 4's block at point t, read at an entry: the array at the shifted coordinates. -/
theorem blk4_apply (c : Dev nD) (t : Fin cfg0.N) (y : S512x256.Idx) (I : S2048x4096.Idx)
    (h0 : (I 0).val = 512 * (t.val / 16 % 4) + (y 0).val) (h1 : (I 1).val = 256 * (t.val % 16) + (y 1).val) :
    (iblk m c 4 t : Vec F S512x256 .bf16) y = V m c main_v6 I := by
  unfold iblk
  rw [View.read_apply]
  show V m c main_v6 _ = V m c main_v6 I
  congr 1
  funext a
  apply Fin.ext
  match a with
  | ⟨0, _⟩ => show win0_4.index t 0 * 512 + 1 * (y 0).val = (I 0).val; rw [(index_w4 t).1, h0]; omega
  | ⟨1, _⟩ => show win0_4.index t 1 * 256 + 1 * (y 1).val = (I 1).val; rw [(index_w4 t).2, h1]; omega

/-- Window 5's block index at point t. -/
theorem index_b5 : ∀ t : Fin cfg0.N, win0_5.index t (0 : Fin 2) = 0 ∧ win0_5.index t (1 : Fin 2) = t.val / 16 % 4 :=
  (by decide +kernel : ∀ t : Fin grid0.N, _)

/-- Window 5's block at point t, read at an entry: the array at the shifted coordinates. -/
theorem blk5_apply (c : Dev nD) (t : Fin cfg0.N) (y : S1x512.Idx) (I : S1x2048.Idx)
    (h0 : (I 0).val = 0 + (y 0).val) (h1 : (I 1).val = 512 * (t.val / 16 % 4) + (y 1).val) :
    (iblk m c 5 t : Vec F S1x512 .f32) y = V m c main_v7 I := by
  unfold iblk
  rw [View.read_apply]
  show V m c main_v7 _ = V m c main_v7 I
  congr 1
  funext a
  apply Fin.ext
  match a with
  | ⟨0, _⟩ => show win0_5.index t 0 * 1 + 1 * (y 0).val = (I 0).val; rw [(index_b5 t).1, h0]; omega
  | ⟨1, _⟩ => show win0_5.index t 1 * 512 + 1 * (y 1).val = (I 1).val; rw [(index_b5 t).2, h1]; omega

/-- Window 6's block index at point t. -/
theorem index_b6 : ∀ t : Fin cfg0.N, win0_6.index t (0 : Fin 2) = 0 ∧ win0_6.index t (1 : Fin 2) = t.val / 16 % 4 :=
  (by decide +kernel : ∀ t : Fin grid0.N, _)

/-- Window 6's block at point t, read at an entry: the array at the shifted coordinates. -/
theorem blk6_apply (c : Dev nD) (t : Fin cfg0.N) (y : S1x512.Idx) (I : S1x2048.Idx)
    (h0 : (I 0).val = 0 + (y 0).val) (h1 : (I 1).val = 512 * (t.val / 16 % 4) + (y 1).val) :
    (iblk m c 6 t : Vec F S1x512 .f32) y = V m c main_v8 I := by
  unfold iblk
  rw [View.read_apply]
  show V m c main_v8 _ = V m c main_v8 I
  congr 1
  funext a
  apply Fin.ext
  match a with
  | ⟨0, _⟩ => show win0_6.index t 0 * 1 + 1 * (y 0).val = (I 0).val; rw [(index_b6 t).1, h0]; omega
  | ⟨1, _⟩ => show win0_6.index t 1 * 512 + 1 * (y 1).val = (I 1).val; rw [(index_b6 t).2, h1]; omega

/-- Window 7's block index at point t. -/
theorem index_b7 : ∀ t : Fin cfg0.N, win0_7.index t (0 : Fin 2) = 0 ∧ win0_7.index t (1 : Fin 2) = t.val / 16 % 4 :=
  (by decide +kernel : ∀ t : Fin grid0.N, _)

/-- Window 7's block at point t, read at an entry: the array at the shifted coordinates. -/
theorem blk7_apply (c : Dev nD) (t : Fin cfg0.N) (y : S1x512.Idx) (I : S1x2048.Idx)
    (h0 : (I 0).val = 0 + (y 0).val) (h1 : (I 1).val = 512 * (t.val / 16 % 4) + (y 1).val) :
    (iblk m c 7 t : Vec F S1x512 .f32) y = V m c main_v9 I := by
  unfold iblk
  rw [View.read_apply]
  show V m c main_v9 _ = V m c main_v9 I
  congr 1
  funext a
  apply Fin.ext
  match a with
  | ⟨0, _⟩ => show win0_7.index t 0 * 1 + 1 * (y 0).val = (I 0).val; rw [(index_b7 t).1, h0]; omega
  | ⟨1, _⟩ => show win0_7.index t 1 * 512 + 1 * (y 1).val = (I 1).val; rw [(index_b7 t).2, h1]; omega

/-- Window 8's block index at point t. -/
theorem index_b8 : ∀ t : Fin cfg0.N, win0_8.index t (0 : Fin 2) = 0 ∧ win0_8.index t (1 : Fin 2) = t.val / 16 % 4 :=
  (by decide +kernel : ∀ t : Fin grid0.N, _)

/-- Window 8's block at point t, read at an entry: the array at the shifted coordinates. -/
theorem blk8_apply (c : Dev nD) (t : Fin cfg0.N) (y : S1x512.Idx) (I : S1x2048.Idx)
    (h0 : (I 0).val = 0 + (y 0).val) (h1 : (I 1).val = 512 * (t.val / 16 % 4) + (y 1).val) :
    (iblk m c 8 t : Vec F S1x512 .f32) y = V m c main_v10 I := by
  unfold iblk
  rw [View.read_apply]
  show V m c main_v10 _ = V m c main_v10 I
  congr 1
  funext a
  apply Fin.ext
  match a with
  | ⟨0, _⟩ => show win0_8.index t 0 * 1 + 1 * (y 0).val = (I 0).val; rw [(index_b8 t).1, h0]; omega
  | ⟨1, _⟩ => show win0_8.index t 1 * 512 + 1 * (y 1).val = (I 1).val; rw [(index_b8 t).2, h1]; omega

/-- Window 9's block index at point t. -/
theorem index_c9 : ∀ t : Fin cfg0.N, win0_9.index t (0 : Fin 2) = t.val / 64 ∧ win0_9.index t (1 : Fin 2) = t.val / 16 % 4 :=
  (by decide +kernel : ∀ t : Fin grid0.N, _)

/-- Window 9's block at point t, read at an entry: the array at the shifted coordinates. -/
theorem blk9_apply (c : Dev nD) (t : Fin cfg0.N) (y : S1024x512.Idx) (I : S4096x2048.Idx)
    (h0 : (I 0).val = 1024 * (t.val / 64) + (y 0).val) (h1 : (I 1).val = 512 * (t.val / 16 % 4) + (y 1).val) :
    (iblk m c 9 t : Vec F S1024x512 .f32) y = V m c main_arg2 I := by
  unfold iblk
  rw [View.read_apply]
  show V m c main_arg2 _ = V m c main_arg2 I
  congr 1
  funext a
  apply Fin.ext
  match a with
  | ⟨0, _⟩ => show win0_9.index t 0 * 1024 + 1 * (y 0).val = (I 0).val; rw [(index_c9 t).1, h0]; omega
  | ⟨1, _⟩ => show win0_9.index t 1 * 512 + 1 * (y 1).val = (I 1).val; rw [(index_c9 t).2, h1]; omega

/-- The output windows' block index at point t. -/
theorem index_o10 : ∀ t : Fin cfg0.N, win0_10.index t (0 : Fin 2) = t.val / 64 ∧ win0_10.index t (1 : Fin 2) = t.val / 16 % 4 :=
  (by decide +kernel : ∀ t : Fin grid0.N, _)

theorem index_o11 : ∀ t : Fin cfg0.N, win0_11.index t (0 : Fin 2) = t.val / 64 ∧ win0_11.index t (1 : Fin 2) = t.val / 16 % 4 :=
  (by decide +kernel : ∀ t : Fin grid0.N, _)

end Cert.KernelIdeal.Cell

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibGatedMix.lean ====
/-
  A thresholded-logistic mixture of the rows of a small table, read one entry at a time at the exact
  (extended-real) values.

  x is an M×D array and W a T×D table.  Row p of x is scored against every row of W,
      s(p, t) = Σ_d x(p, d) · W(t, d),
  each score becomes a weight  g(s) = logistic(s),  replaced by z wherever logistic(s) < θ,  and the weighted
  rows of W are added back onto x:
      mix(x, W)(p, q) = x(p, q) + Σ_t g(s(p, t)) · W(t, q).
  Entry (p, q) sees x only through its row p.  So the mixture of a block of rows is the same block of the
  mixture of the whole array, and a computation done block of rows by block of rows agrees with one done whole.

  Two spellings of this function are identified with it, for every M, D, T:  the vector unit's (a product with the
  table contracted on its last axis into a zero accumulator, the logistic operation, a compare-and-select against
  splat scalars, a plain product into a zero accumulator, an add), and the host's (two dot_generals, the
  logistic spelt 1 / (1 + exp(−s)) over arrays that hold 1 everywhere, a compare-and-select against arrays that
  hold θ and z everywhere, an add).  Both products are plain finite sums over the extended reals and nothing here
  moves a factor across a sum, so no finiteness of the entries is used.
-/
import Idealize.ShloMosaic.Lib.ValueIdx
import Idealize.ShloMosaic.PureOps.Ideal.Laws
import proofs.«150020_j16269336118035_2_alg».proof.Proof.LibRowDot

noncomputable section

open scoped BigOperators

namespace Cert.GatedMix

open Idealize.ShloMosaic Idealize.ShloMosaic.ValueIdx Cert.RowDot

/-! ## A product with the right operand contracted on its last axis -/

/-- Entry t of (row · Wᵀ) for a T×D matrix W:  the sum over d of row(d) · W(t, d). -/
def rowDotT {D T : Nat} (row : Fin D → EReal) (W : (⟨2, ![T, D]⟩ : Shape).Idx → EReal) (t : Fin T) : EReal :=
  ∑ d : Fin D, row d * W (ix2 t d)

/-- The contraction shape of such a product is one axis. -/
theorem transposed_rank (M K N : Nat) : (DotDims.transposedRhs M K N).contr.rank = 1 := rfl

/-- The left operand's index at output index j keeps j's row. -/
theorem transposed_lhs0 {M K N : Nat} (j : (⟨2, ![M, N]⟩ : Shape).Idx) (u : (DotDims.transposedRhs M K N).contr.Idx) :
    ((DotDims.transposedRhs M K N).lhsIdx j u 0).val = (j 0).val := by
  unfold DotDims.lhsIdx
  rw [dif_neg (show ¬((0 : Fin (⟨2, ![M, K]⟩ : Shape).rank) ∈ (DotDims.transposedRhs M K N).lhsBatch) from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem transposed_lhs1 {M K N : Nat} (j : (⟨2, ![M, N]⟩ : Shape).Idx) (u : (DotDims.transposedRhs M K N).contr.Idx) :
    ((DotDims.transposedRhs M K N).lhsIdx j u 1).val = (u ⟨0, by rw [transposed_rank]; exact Nat.one_pos⟩).val :=
  (DotDims.transposedRhs M K N).lhsIdx_val_of_single rfl j u

/-- The right operand's row is j's column. -/
theorem transposed_rhs0 {M K N : Nat} (j : (⟨2, ![M, N]⟩ : Shape).Idx) (u : (DotDims.transposedRhs M K N).contr.Idx) :
    ((DotDims.transposedRhs M K N).rhsIdx j u 0).val = (j 1).val := by
  unfold DotDims.rhsIdx
  rw [dif_neg (show ¬((0 : Fin (⟨2, ![N, K]⟩ : Shape).rank) ∈ (DotDims.transposedRhs M K N).rhsBatch) from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem transposed_rhs1 {M K N : Nat} (j : (⟨2, ![M, N]⟩ : Shape).Idx) (u : (DotDims.transposedRhs M K N).contr.Idx) :
    ((DotDims.transposedRhs M K N).rhsIdx j u 1).val = (u ⟨0, by rw [transposed_rank]; exact Nat.one_pos⟩).val :=
  (DotDims.transposedRhs M K N).rhsIdx_val_of_single rfl j u

/-- The contraction's sum, re-indexed by k < K: row (j 0) of l against row (j 1) of r. -/
theorem transposed_contr_sum {M K N : Nat} (l : (⟨2, ![M, K]⟩ : Shape).Idx → EReal) (r : (⟨2, ![N, K]⟩ : Shape).Idx → EReal)
    (j : (⟨2, ![M, N]⟩ : Shape).Idx) :
    ∑ u : (DotDims.transposedRhs M K N).contr.Idx,
        l ((DotDims.transposedRhs M K N).lhsIdx j u) * r ((DotDims.transposedRhs M K N).rhsIdx j u)
      = rowDotT (rowOf l (j 0)) r (j 1) := by
  unfold rowDotT rowOf
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact transposed_lhs0 j _
      | ⟨1, _⟩ => exact (transposed_lhs1 j _).trans hk)
  have er : (DotDims.transposedRhs M K N).rhsIdx j ((contrEquiv1 (DotDims.transposedRhs M K N) K rfl rfl).symm k) = ix2 (j 1) k :=
    funext fun a => Fin.ext (by
      match a with
      | ⟨0, _⟩ => exact transposed_rhs0 j _
      | ⟨1, _⟩ => exact (transposed_rhs1 j _).trans hk)
  exact congrArg₂ (fun a b : EReal => a * b) (congrArg l el) (congrArg r er)

/-- The vector unit's product into the zero accumulator, at an entry. -/
theorem matmul_transposed_zero_apply {M K N : Nat} {φ₁ φ₂ : FTy} (prec : Option ContractPrecision)
    (lhs : FVec Ideal (⟨2, ![M, K]⟩ : Shape) φ₁) (rhs : FVec Ideal (⟨2, ![N, K]⟩ : Shape) φ₂) (j : (⟨2, ![M, N]⟩ : Shape).Idx) :
    FloatOps.matmul (DotDims.transposedRhs M K N) prec lhs rhs (constant (F := Ideal) (⟨2, ![M, N]⟩ : Shape) .f32 0x00000000#32) j
      = rowDotT (rowOf lhs (j 0)) rhs (j 1) := by
  rw [Ideal.matmul_constant_zero_apply]
  exact transposed_contr_sum lhs rhs j

/-- The host's dot_general, at an entry. -/
theorem dotGeneral_transposed_apply {M K N : Nat} {φ₁ φ₂ : FTy} (prec : Option ContractPrecision) (sched : HostSchedule)
    (lhs : FVec Ideal (⟨2, ![M, K]⟩ : Shape) φ₁) (rhs : FVec Ideal (⟨2, ![N, K]⟩ : Shape) φ₂) (j : (⟨2, ![M, N]⟩ : Shape).Idx) :
    FloatOps.dotGeneral (DotDims.transposedRhs M K N) prec sched lhs rhs j = rowDotT (rowOf lhs (j 0)) rhs (j 1) := by
  rw [Ideal.dotGeneral_apply]
  exact transposed_contr_sum lhs rhs j

/-! ## The mixture -/

/-- The weight of a score: its logistic, replaced by z where that is strictly below θ. -/
def gate (θ z s : EReal) : EReal :=
  Scalar.select (FloatOps.cmpf (F := Ideal) (φ := .f32) .olt (Ideal.logistic s) θ) z (Ideal.logistic s)

/-- One row of the mixture: the row plus the table's rows weighted by the gated scores of the row. -/
def mixRow {D T : Nat} (θ z : EReal) (row : Fin D → EReal) (W : (⟨2, ![T, D]⟩ : Shape).Idx → EReal) (q : Fin D) : EReal :=
  row q + ∑ t : Fin T, gate θ z (rowDotT row W t) * W (ix2 t q)

/-- The mixture of an M×D array with a T×D table: entry (p, q) is entry q of the mixture of row p. -/
def mix {M D T : Nat} (θ z : EReal) (x : (⟨2, ![M, D]⟩ : Shape).Idx → EReal) (W : (⟨2, ![T, D]⟩ : Shape).Idx → EReal) :
    (⟨2, ![M, D]⟩ : Shape).Idx → EReal :=
  fun j => mixRow θ z (rowOf x (j 0)) W (j 1)

/-- Entry (p, q) of the mixture depends on x through row p only: if row p' of x' is row p of x, the entries agree. -/
theorem mix_rows {M M' D T : Nat} (θ z : EReal) (x : (⟨2, ![M, D]⟩ : Shape).Idx → EReal) (x' : (⟨2, ![M', D]⟩ : Shape).Idx → EReal)
    (W : (⟨2, ![T, D]⟩ : Shape).Idx → EReal) (p : Fin M) (p' : Fin M') (q : Fin D)
    (h : ∀ d : Fin D, x' (ix2 p' d) = x (ix2 p d)) :
    mix θ z x' W (ix2 p' q) = mix θ z x W (ix2 p q) := by
  have hr : rowOf x' p' = rowOf x p := funext h
  show mixRow θ z (rowOf x' p') W q = mixRow θ z (rowOf x p) W q
  rw [hr]

/-- The same for whole indices: entry y of the mixture of x' is entry i of the mixture of x when row (y 0) of x' is row
    (i 0) of x and the two indices name the same column. -/
theorem mix_block {M M' D T : Nat} (θ z : EReal) (x : (⟨2, ![M, D]⟩ : Shape).Idx → EReal) (x' : (⟨2, ![M', D]⟩ : Shape).Idx → EReal)
    (W : (⟨2, ![T, D]⟩ : Shape).Idx → EReal) (y : (⟨2, ![M', D]⟩ : Shape).Idx) (i : (⟨2, ![M, D]⟩ : Shape).Idx)
    (hrow : ∀ d : Fin D, x' (ix2 (y 0) d) = x (ix2 (i 0) d)) (hcol : (i 1).val = (y 1).val) :
    mix θ z x' W y = mix θ z x W i := by
  have e0 : rowOf x' (y 0) = rowOf x (i 0) := funext hrow
  have e1 : (y 1 : Fin D) = (i 1 : Fin D) := Fin.ext hcol.symm
  show mixRow θ z (rowOf x' (y 0)) W (y 1) = mixRow θ z (rowOf x (i 0)) W (i 1)
  exact congrArg₂ (fun (r : Fin D → EReal) (q : Fin D) => mixRow θ z r W q) e0 e1

/-! ## The vector unit's spelling -/

/-- A product contracted on the table's last axis into zero, the logistic, the compare-and-select against two splat
    scalars, a plain product with the table into zero, and the add: the mixture, with θ and z the two words' values. -/
theorem vector_form {M D T : Nat} (p₁ p₂ : Option ContractPrecision) (θw zw : BitVec 32)
    (x : FVec Ideal (⟨2, ![M, D]⟩ : Shape) .f32) (W : FVec Ideal (⟨2, ![T, D]⟩ : Shape) .f32) :
    addf x (matmul (DotDims.plain M T D) p₂
        (select
          (cmpf .olt
            (logistic (matmul (DotDims.transposedRhs M D T) p₁ x W (constant (⟨2, ![M, T]⟩ : Shape) .f32 0x00000000#32)))
            (broadcast (⟨2, ![M, T]⟩ : Shape) (Scalar.ofBits (F := Ideal) .f32 θw)))
          (broadcast (⟨2, ![M, T]⟩ : Shape) (Scalar.ofBits (F := Ideal) .f32 zw))
          (logistic (matmul (DotDims.transposedRhs M D T) p₁ x W (constant (⟨2, ![M, T]⟩ : Shape) .f32 0x00000000#32))))
        W (constant (⟨2, ![M, D]⟩ : Shape) .f32 0x00000000#32))
      = mix (Ideal.ofBits .f32 θw) (Ideal.ofBits .f32 zw) x W := by
  funext j
  obtain ⟨p, q, rfl⟩ : ∃ (p : Fin M) (q : Fin D), j = ix2 p q := ⟨j 0, j 1, eq_ix2 j⟩
  rw [addf_apply]
  refine congrArg (x (ix2 p q) + ·) ?_
  refine (matmul_plain_zero_apply p₂ _ W (ix2 p q)).trans ?_
  refine Finset.sum_congr rfl fun t _ => ?_
  refine congrArg (· * W (ix2 t q)) ?_
  show Scalar.select (FloatOps.cmpf .olt (Ideal.logistic (FloatOps.matmul (DotDims.transposedRhs M D T) p₁ x W
      (constant (F := Ideal) (⟨2, ![M, T]⟩ : Shape) .f32 0x00000000#32) (ix2 p t))) (Ideal.ofBits .f32 θw)) (Ideal.ofBits .f32 zw)
      (Ideal.logistic (FloatOps.matmul (DotDims.transposedRhs M D T) p₁ x W
      (constant (F := Ideal) (⟨2, ![M, T]⟩ : Shape) .f32 0x00000000#32) (ix2 p t))) = _
  rw [matmul_transposed_zero_apply]
  rfl

/-! ## The host's spelling -/

/-- The f32 word of 1.0 is the number 1. -/
theorem one_word : Ideal.ofBits .f32 0x3F800000#32 = 1 := by
  simp [Ideal.ofBits, Ideal.ieee, -EReal.coe_mul]; norm_num

/-- Two dot_generals, the logistic spelt 1 / (1 + exp(−s)) over arrays that are 1 everywhere, the compare-and-select
    against arrays that are θ and z everywhere, and the add: the mixture. -/
theorem host_form {M D T : Nat} (p₁ p₂ : Option ContractPrecision) (θ z : EReal)
    (x : FVec Ideal (⟨2, ![M, D]⟩ : Shape) .f32) (W : FVec Ideal (⟨2, ![T, D]⟩ : Shape) .f32)
    (one one' θv zv : FVec Ideal (⟨2, ![M, T]⟩ : Shape) .f32)
    (h1 : ∀ i, one i = 1) (h1' : ∀ i, one' i = 1) (hθ : ∀ i, θv i = θ) (hz : ∀ i, zv i = z) :
    addf x (Host.dotGeneral (DotDims.plain M T D) p₂
        (select
          (cmpf .olt
            (Host.divf one (addf one' (Host.exp (Host.negf (Host.dotGeneral (DotDims.transposedRhs M D T) p₁ x W)))))
            θv)
          zv
          (Host.divf one (addf one' (Host.exp (Host.negf (Host.dotGeneral (DotDims.transposedRhs M D T) p₁ x W))))))
        W)
      = mix θ z x W := by
  funext j
  obtain ⟨p, q, rfl⟩ : ∃ (p : Fin M) (q : Fin D), j = ix2 p q := ⟨j 0, j 1, eq_ix2 j⟩
  rw [addf_apply]
  refine congrArg (x (ix2 p q) + ·) ?_
  refine (dotGeneral_plain_apply p₂ .single _ W (ix2 p q)).trans ?_
  refine Finset.sum_congr rfl fun t _ => ?_
  refine congrArg (· * W (ix2 t q)) ?_
  show Scalar.select (FloatOps.cmpf .olt
      (FloatOps.hostDivf (one (ix2 p t)) (FloatOps.addf (one' (ix2 p t)) (FloatOps.hostUnary .exp (FloatOps.hostNegf
        (FloatOps.dotGeneral (DotDims.transposedRhs M D T) p₁ .single x W (ix2 p t))))))
      (θv (ix2 p t))) (zv (ix2 p t))
      (FloatOps.hostDivf (one (ix2 p t)) (FloatOps.addf (one' (ix2 p t)) (FloatOps.hostUnary .exp (FloatOps.hostNegf
        (FloatOps.dotGeneral (DotDims.transposedRhs M D T) p₁ .single x W (ix2 p t)))))) = _
  rw [dotGeneral_transposed_apply, h1, h1', hθ, hz]
  rfl

end Cert.GatedMix

end
-- ==== Proof.LibBlockSum.lean ====
/-
  A finite sum taken block by block.

  A sum over d < N can be accumulated in consecutive blocks: start from nothing, and at each step add the sum of
  the next b terms.  After the blocks that make up the first a terms the accumulator holds the a-th partial sum,
  and once the blocks have exhausted the range it holds the whole sum.  Only that addition is associative and
  commutative is used, so this holds in any commutative monoid — in particular over the extended reals, where no
  finiteness of the terms is needed.

  To speak of the a-th partial sum for every natural a, the summand is extended by zero beyond N.
-/
import Mathlib.Algebra.BigOperators.Fin
import Mathlib.Algebra.BigOperators.Intervals

open scoped BigOperators

namespace Cert.BlockSum

variable {M : Type*} [AddCommMonoid M]

/-- A summand on the indices below N, extended by zero to every natural number. -/
def ext0 {N : ℕ} (f : Fin N → M) (d : ℕ) : M := if h : d < N then f ⟨d, h⟩ else 0

theorem ext0_of_lt {N : ℕ} (f : Fin N → M) (d : ℕ) (h : d < N) : ext0 f d = f ⟨d, h⟩ := dif_pos h

/-- The sum of the first n terms. -/
def partialSum {N : ℕ} (f : Fin N → M) (n : ℕ) : M := ∑ d ∈ Finset.range n, ext0 f d

theorem partialSum_zero {N : ℕ} (f : Fin N → M) : partialSum f 0 = 0 := Finset.sum_range_zero _

/-- The N-th partial sum is the whole sum. -/
theorem partialSum_full {N : ℕ} (f : Fin N → M) : partialSum f N = ∑ d : Fin N, f d := by
  unfold partialSum
  rw [← Fin.sum_univ_eq_sum_range (ext0 f) N]
  exact Finset.sum_congr rfl fun d _ => ext0_of_lt f d.val d.isLt

/-- The block of b terms starting at a, as a sum over k < b. -/
theorem block_eq {N : ℕ} (f : Fin N → M) (a b : ℕ) (h : a + b ≤ N) :
    ∑ k : Fin b, f ⟨a + k.val, Nat.lt_of_lt_of_le (Nat.add_lt_add_left k.isLt a) h⟩
      = ∑ k ∈ Finset.range b, ext0 f (a + k) := by
  rw [← Fin.sum_univ_eq_sum_range (fun k => ext0 f (a + k)) b]
  exact Finset.sum_congr rfl fun k _ => (ext0_of_lt f (a + k.val) _).symm

/-- Adding the next block of b terms to the a-th partial sum gives the (a + b)-th. -/
theorem partialSum_add_block {N : ℕ} (f : Fin N → M) (a b : ℕ) (h : a + b ≤ N) :
    partialSum f a + ∑ k : Fin b, f ⟨a + k.val, Nat.lt_of_lt_of_le (Nat.add_lt_add_left k.isLt a) h⟩
      = partialSum f (a + b) := by
  rw [block_eq f a b h]
  unfold partialSum
  exact (Finset.sum_range_add (ext0 f) a b).symm

end Cert.BlockSum
-- ==== Proof.Spec.lean ====
/-
  One step of an LSTM cell, entry by entry, at exact (extended-real) values.

  The activations xh form a 4096 x 4096 array (the input and the previous hidden state side by side); each of the
  four gates g has a 2048 x 4096 weight matrix W_g and a bias b_g.  The pre-activation of gate g at batch row r
  and hidden unit h is
      z_g(r, h) = (sum over d < 4096 of xh(r, d) * W_g(h, d)) + b_g(h),
  and with s the logistic function  s(z) = 1 / (1 + exp(-z))  the step is
      c'(r, h) = s(z_f) * c(r, h) + s(z_i) * tanh(z_c),
      h'(r, h) = s(z_o) * tanh(c'(r, h)).
  Everything is a function of ONE entry of each pre-activation, and a pre-activation is a plain finite sum; no
  factor is moved across a sum, so nothing here asks the entries to be finite.
-/
import Idealize.ShloMosaic.Lib.ValueIdx
import Idealize.ShloMosaic.PureOps.Ideal.Laws

noncomputable section

open scoped BigOperators

namespace Cert.Lstm

open Idealize.ShloMosaic Idealize.ShloMosaic.ValueIdx

/-- One term of a pre-activation: activation (r, d) times weight (h, d). -/
def term (xh : (⟨2, ![4096, 4096]⟩ : Shape).Idx → EReal) (W : (⟨2, ![2048, 4096]⟩ : Shape).Idx → EReal)
    (r : Fin 4096) (h : Fin 2048) (d : Fin 4096) : EReal :=
  xh (ix2 r d) * W (ix2 h d)

/-- A gate's pre-activation at (r, h): row r of the activations against row h of the weights, plus the bias. -/
def preAct (xh : (⟨2, ![4096, 4096]⟩ : Shape).Idx → EReal) (W : (⟨2, ![2048, 4096]⟩ : Shape).Idx → EReal)
    (b : (⟨1, ![2048]⟩ : Shape).Idx → EReal) (r : Fin 4096) (h : Fin 2048) : EReal :=
  (∑ d : Fin 4096, term xh W r h d) + b (ix1 h)

/-- The new cell value from the input, forget and candidate pre-activations and the old cell value. -/
def cellAt (zi zf zc c : EReal) : EReal :=
  Ideal.logistic zf * c + Ideal.logistic zi * Ideal.tanh zc

/-- The new hidden value. -/
def hiddenAt (zi zf zo zc c : EReal) : EReal :=
  Ideal.logistic zo * Ideal.tanh (cellAt zi zf zc c)

/-- The new cell state, as one function of the arrays. -/
def cell (xh : (⟨2, ![4096, 4096]⟩ : Shape).Idx → EReal)
    (Wi : (⟨2, ![2048, 4096]⟩ : Shape).Idx → EReal) (bi : (⟨1, ![2048]⟩ : Shape).Idx → EReal)
    (Wf : (⟨2, ![2048, 4096]⟩ : Shape).Idx → EReal) (bf : (⟨1, ![2048]⟩ : Shape).Idx → EReal)
    (Wc : (⟨2, ![2048, 4096]⟩ : Shape).Idx → EReal) (bc : (⟨1, ![2048]⟩ : Shape).Idx → EReal)
    (c : (⟨2, ![4096, 2048]⟩ : Shape).Idx → EReal) : (⟨2, ![4096, 2048]⟩ : Shape).Idx → EReal := fun j =>
  cellAt (preAct xh Wi bi (j 0) (j 1)) (preAct xh Wf bf (j 0) (j 1)) (preAct xh Wc bc (j 0) (j 1)) (c j)

/-- The new hidden state, as one function of the arrays. -/
def hidden (xh : (⟨2, ![4096, 4096]⟩ : Shape).Idx → EReal)
    (Wi : (⟨2, ![2048, 4096]⟩ : Shape).Idx → EReal) (bi : (⟨1, ![2048]⟩ : Shape).Idx → EReal)
    (Wf : (⟨2, ![2048, 4096]⟩ : Shape).Idx → EReal) (bf : (⟨1, ![2048]⟩ : Shape).Idx → EReal)
    (Wo : (⟨2, ![2048, 4096]⟩ : Shape).Idx → EReal) (bo : (⟨1, ![2048]⟩ : Shape).Idx → EReal)
    (Wc : (⟨2, ![2048, 4096]⟩ : Shape).Idx → EReal) (bc : (⟨1, ![2048]⟩ : Shape).Idx → EReal)
    (c : (⟨2, ![4096, 2048]⟩ : Shape).Idx → EReal) : (⟨2, ![4096, 2048]⟩ : Shape).Idx → EReal := fun j =>
  hiddenAt (preAct xh Wi bi (j 0) (j 1)) (preAct xh Wf bf (j 0) (j 1)) (preAct xh Wo bo (j 0) (j 1))
    (preAct xh Wc bc (j 0) (j 1)) (c j)

/-- The single-precision word 0x3F800000 is the number one. -/
theorem one_bits : Ideal.ofBits .f32 0x3F800000#32 = 1 := by
  simp [Ideal.ofBits, Ideal.ieee, -EReal.coe_mul]; norm_num

/-- The logistic function in the host's spelling: one over (one plus the exponential of the negation). -/
theorem logistic_spelt (z : EReal) :
    Ideal.div (Ideal.ofBits .f32 0x3F800000#32) (Ideal.ofBits .f32 0x3F800000#32 + Ideal.exp (-z)) = Ideal.logistic z := by
  rw [one_bits]; rfl

end Cert.Lstm

end
-- ==== Proof.Sums.lean ====
/-
  The accumulators are partial sums of the gates' pre-activations, and the outputs are the LSTM step.

  Fix a tile (i, j) and an entry (p, q) of its 1024 x 512 block; let r = 1024 i + p and h = 512 j + q.  One block
  product contributes  sum over d < 256 of xh(r, 256 k + d) * W(h, 256 k + d)  to the entry, so after the point k of
  the tile the accumulator of a gate holds the sum of the first 256 (k + 1) terms of that gate's pre-activation
  at (r, h) — by induction along the tile, starting from the zero block — and after k = 15 all 4096 of them.  Adding
  the bias and applying the gate functions at that last point gives the LSTM step at (r, h).  Sums over the
  extended reals may be regrouped freely, so nothing is asked of the entries.
-/
import proofs.«150020_j16269336118035_2_alg».proof.Proof.Points
import proofs.«150020_j16269336118035_2_alg».proof.Proof.Blocks
import proofs.«150020_j16269336118035_2_alg».proof.Proof.LibGatedMix
import proofs.«150020_j16269336118035_2_alg».proof.Proof.LibBlockSum
import proofs.«150020_j16269336118035_2_alg».proof.Proof.Spec
import Idealize.ShloMosaic.Lib.ValueLayout
import Idealize.ShloMosaic.Lib.StableHlo.Run
import Idealize.ShloMosaic.PureOps.Ideal.Laws
set_option maxRecDepth 16384

noncomputable section

open Idealize.ShloMosaic Idealize.ShloMosaic.TcCoe Idealize.SL.Sem

open scoped BigOperators

namespace Cert.KernelIdeal.Cell

open Cert.KernelIdeal Cert.KernelIdeal.Gen Idealize.ShloMosaic.ValueIdx Cert.BlockSum

variable (m : (ℓ : Loc nD τ sig) → Buf (Elt Ideal) ℓ)

/-! ## The body's arithmetic at an entry -/

/-- The body's products contract the last axis of both operands. -/
theorem dims_eq : dot_S1024x256_S512x256_S1024x512_1_1_0_0_n_n = DotDims.transposedRhs 1024 256 512 := rfl

/-- A block product into the zero accumulator at an entry: row p of the activation block against row q of the weight
    block. -/
theorem prod_apply (x : FVec Ideal S1024x256 .bf16) (w : FVec Ideal S512x256 .bf16) (p : Fin 1024) (q : Fin 512) :
    matmul dot_S1024x256_S512x256_S1024x512_1_1_0_0_n_n none x w (constant (F := Ideal) S1024x512 .f32 0x00000000#32) (ix2 p q)
      = ∑ d : Fin 256, x (ix2 p d) * w (ix2 q d) := by
  rw [dims_eq]
  exact Cert.GatedMix.matmul_transposed_zero_apply none x w (ix2 p q)

theorem pay9_apply (x : FVec Ideal S1024x256 .bf16) (acc : FVec Ideal S1024x512 .f32) (w : FVec Ideal S512x256 .bf16)
    (p : Fin 1024) (q : Fin 512) :
    k0_pay9 x acc w (ix2 p q) = acc (ix2 p q) + ∑ d : Fin 256, x (ix2 p d) * w (ix2 q d) := by
  unfold k0_pay9 k0_pay8
  simp only [shapeCast_self]
  rw [addf_apply, prod_apply]

theorem pay10_apply (x : FVec Ideal S1024x256 .bf16) (acc : FVec Ideal S1024x512 .f32) (w : FVec Ideal S512x256 .bf16)
    (p : Fin 1024) (q : Fin 512) :
    k0_pay10 x acc w (ix2 p q) = acc (ix2 p q) + ∑ d : Fin 256, x (ix2 p d) * w (ix2 q d) := by
  unfold k0_pay10 k0_pay8
  simp only [shapeCast_self]
  rw [addf_apply, prod_apply]

theorem pay11_apply (x : FVec Ideal S1024x256 .bf16) (acc : FVec Ideal S1024x512 .f32) (w : FVec Ideal S512x256 .bf16)
    (p : Fin 1024) (q : Fin 512) :
    k0_pay11 x acc w (ix2 p q) = acc (ix2 p q) + ∑ d : Fin 256, x (ix2 p d) * w (ix2 q d) := by
  unfold k0_pay11 k0_pay8
  simp only [shapeCast_self]
  rw [addf_apply, prod_apply]

theorem pay1_apply (x : FVec Ideal S1024x256 .bf16) (acc : FVec Ideal S1024x512 .f32) (w : FVec Ideal S512x256 .bf16)
    (p : Fin 1024) (q : Fin 512) :
    k0_pay1 (k0_pay8 x) acc w (ix2 p q) = acc (ix2 p q) + ∑ d : Fin 256, x (ix2 p d) * w (ix2 q d) := by
  unfold k0_pay1 k0_pay8
  simp only [shapeCast_self]
  rw [addf_apply, prod_apply]

/-- The block a tile's first point stores into accumulator 0 is zero. -/
theorem zero0_apply (j : S1024x512.Idx) : (k0_pay4 (F := Ideal)) j = 0 := by
  unfold k0_pay4
  simp only [shapeCast_self]
  exact Ideal.ofBits_zero_f32

/-- The block a tile's first point stores into accumulator 1 is zero. -/
theorem zero1_apply (j : S1024x512.Idx) : (k0_pay5 (F := Ideal)) j = 0 := by
  unfold k0_pay5
  simp only [shapeCast_self]
  exact Ideal.ofBits_zero_f32

/-- The block a tile's first point stores into accumulator 2 is zero. -/
theorem zero2_apply (j : S1024x512.Idx) : (k0_pay6 (F := Ideal)) j = 0 := by
  unfold k0_pay6
  simp only [shapeCast_self]
  exact Ideal.ofBits_zero_f32

/-- The block a tile's first point stores into accumulator 3 is zero. -/
theorem zero3_apply (j : S1024x512.Idx) : (k0_pay7 (F := Ideal)) j = 0 := by
  unfold k0_pay7
  simp only [shapeCast_self]
  exact Ideal.ofBits_zero_f32

/-- The cell payload at an entry. -/
theorem pay2_apply (a0 : FVec Ideal S1024x512 .f32) (b0 : FVec Ideal S1x512 .f32) (a1 : FVec Ideal S1024x512 .f32)
    (b1 : FVec Ideal S1x512 .f32) (a3 : FVec Ideal S1024x512 .f32) (b3 : FVec Ideal S1x512 .f32) (c1 : FVec Ideal S1024x512 .f32)
    (p : Fin 1024) (q : Fin 512) :
    k0_pay2 (F := Ideal) a0 b0 a1 b1 a3 b3 c1 (ix2 p q)
      = Cert.Lstm.cellAt (a0 (ix2 p q) + b0 (ix2 (0 : Fin 1) q)) (a1 (ix2 p q) + b1 (ix2 (0 : Fin 1) q))
          (a3 (ix2 p q) + b3 (ix2 (0 : Fin 1) q)) (c1 (ix2 p q)) := by
  unfold k0_pay2 Cert.Lstm.cellAt
  simp only [shapeCast_self]
  show Ideal.logistic (a1 (ix2 p q) + broadcastTo S1024x512 b1 broadcasts_S1x512_S1024x512 (ix2 p q)) * c1 (ix2 p q)
      + Ideal.logistic (a0 (ix2 p q) + broadcastTo S1024x512 b0 broadcasts_S1x512_S1024x512 (ix2 p q))
        * Ideal.tanh (a3 (ix2 p q) + broadcastTo S1024x512 b3 broadcasts_S1x512_S1024x512 (ix2 p q)) = _
  rw [broadcastTo_1b_ab_apply b1, broadcastTo_1b_ab_apply b0, broadcastTo_1b_ab_apply b3]

/-- The hidden payload at an entry. -/
theorem pay3_apply (a0 : FVec Ideal S1024x512 .f32) (b0 : FVec Ideal S1x512 .f32) (a1 : FVec Ideal S1024x512 .f32)
    (b1 : FVec Ideal S1x512 .f32) (a2 : FVec Ideal S1024x512 .f32) (b2 : FVec Ideal S1x512 .f32) (a3 : FVec Ideal S1024x512 .f32)
    (b3 : FVec Ideal S1x512 .f32) (c1 : FVec Ideal S1024x512 .f32) (p : Fin 1024) (q : Fin 512) :
    k0_pay3 (F := Ideal) a0 b0 a1 b1 a2 b2 a3 b3 c1 (ix2 p q)
      = Cert.Lstm.hiddenAt (a0 (ix2 p q) + b0 (ix2 (0 : Fin 1) q)) (a1 (ix2 p q) + b1 (ix2 (0 : Fin 1) q))
          (a2 (ix2 p q) + b2 (ix2 (0 : Fin 1) q)) (a3 (ix2 p q) + b3 (ix2 (0 : Fin 1) q)) (c1 (ix2 p q)) := by
  unfold k0_pay3 Cert.Lstm.hiddenAt
  simp only [shapeCast_self]
  show Ideal.logistic (a2 (ix2 p q) + broadcastTo S1024x512 b2 broadcasts_S1x512_S1024x512 (ix2 p q))
      * Ideal.tanh (k0_pay2 (F := Ideal) a0 b0 a1 b1 a3 b3 c1 (ix2 p q)) = _
  rw [broadcastTo_1b_ab_apply b2, pay2_apply]

/-! ## One block product as the next 256 terms of a pre-activation -/

/-- Adding a block product to the a-th partial sum of a pre-activation gives the (a + 256)-th, when the blocks hold
    columns a .. a + 255 of row r of the activations and of row h of the weights. -/
theorem add_block (XH : S4096x4096.Idx → EReal) (W : S2048x4096.Idx → EReal) (x : FVec Ideal S1024x256 .bf16)
    (w : FVec Ideal S512x256 .bf16) (p : Fin 1024) (q : Fin 512) (r : Fin 4096) (h : Fin 2048) (a : ℕ) (ha : a + 256 ≤ 4096)
    (prev : EReal) (hprev : prev = partialSum (Cert.Lstm.term XH W r h) a)
    (hx : ∀ d : Fin 256, x (ix2 p d) = XH (ix2 r ⟨a + d.val, Nat.lt_of_lt_of_le (Nat.add_lt_add_left d.isLt a) ha⟩))
    (hw : ∀ d : Fin 256, w (ix2 q d) = W (ix2 h ⟨a + d.val, Nat.lt_of_lt_of_le (Nat.add_lt_add_left d.isLt a) ha⟩)) :
    prev + ∑ d : Fin 256, x (ix2 p d) * w (ix2 q d)
      = partialSum (Cert.Lstm.term XH W r h) (a + 256) := by
  subst hprev
  rw [← partialSum_add_block (Cert.Lstm.term XH W r h) a 256 ha]
  congr 1
  exact Finset.sum_congr rfl fun d _ => by rw [hx d, hw d]; rfl

/-! ## The arrays the region finds, in terms of the arguments -/

/-- The activations: the two halves side by side (the change of format before joining is the identity here). -/
theorem V_xh (c : Dev nD) : (V m c main_v2 : S4096x4096.Idx → EReal)
    = concatenate S4096x4096 1 [⟨S4096x2048, (m ((c : Thread nD τ).loc main_arg0))⟩, ⟨S4096x2048, (m ((c : Thread nD τ).loc main_arg1))⟩]
        concatenates_S4096x2048_S4096x2048_S4096x4096_d1 := by
  dsimp only [V, hostOps0]
  after_results
  rfl

/-- Gate 0's weights are its argument. -/
theorem V_w0 (c : Dev nD) : (V m c main_v3 : S2048x4096.Idx → EReal) = (m ((c : Thread nD τ).loc main_arg3)) := by
  dsimp only [V, hostOps0]
  after_results
  rfl

/-- Gate 0's bias, laid out as one row, at column h. -/
theorem V_b0 (c : Dev nD) (h : Fin 2048) :
    (V m c main_v7 : S1x2048.Idx → EReal) (ix2 (0 : Fin 1) h) = (m ((c : Thread nD τ).loc main_arg4)) (ix1 h) := by
  have e : (V m c main_v7 : S1x2048.Idx → EReal) = shapeCast S1x2048 (m ((c : Thread nD τ).loc main_arg4)) shapeCasts_S2048_S1x2048 := by
    dsimp only [V, hostOps0]
    after_results
    rfl
  rw [e]
  exact shapeCast_a_1a_apply _ _ 0 h

/-- Gate 1's weights are its argument. -/
theorem V_w1 (c : Dev nD) : (V m c main_v4 : S2048x4096.Idx → EReal) = (m ((c : Thread nD τ).loc main_arg5)) := by
  dsimp only [V, hostOps0]
  after_results
  rfl

/-- Gate 1's bias, laid out as one row, at column h. -/
theorem V_b1 (c : Dev nD) (h : Fin 2048) :
    (V m c main_v8 : S1x2048.Idx → EReal) (ix2 (0 : Fin 1) h) = (m ((c : Thread nD τ).loc main_arg6)) (ix1 h) := by
  have e : (V m c main_v8 : S1x2048.Idx → EReal) = shapeCast S1x2048 (m ((c : Thread nD τ).loc main_arg6)) shapeCasts_S2048_S1x2048 := by
    dsimp only [V, hostOps0]
    after_results
    rfl
  rw [e]
  exact shapeCast_a_1a_apply _ _ 0 h

/-- Gate 2's weights are its argument. -/
theorem V_w2 (c : Dev nD) : (V m c main_v5 : S2048x4096.Idx → EReal) = (m ((c : Thread nD τ).loc main_arg7)) := by
  dsimp only [V, hostOps0]
  after_results
  rfl

/-- Gate 2's bias, laid out as one row, at column h. -/
theorem V_b2 (c : Dev nD) (h : Fin 2048) :
    (V m c main_v9 : S1x2048.Idx → EReal) (ix2 (0 : Fin 1) h) = (m ((c : Thread nD τ).loc main_arg8)) (ix1 h) := by
  have e : (V m c main_v9 : S1x2048.Idx → EReal) = shapeCast S1x2048 (m ((c : Thread nD τ).loc main_arg8)) shapeCasts_S2048_S1x2048 := by
    dsimp only [V, hostOps0]
    after_results
    rfl
  rw [e]
  exact shapeCast_a_1a_apply _ _ 0 h

/-- Gate 3's weights are its argument. -/
theorem V_w3 (c : Dev nD) : (V m c main_v6 : S2048x4096.Idx → EReal) = (m ((c : Thread nD τ).loc main_arg9)) := by
  dsimp only [V, hostOps0]
  after_results
  rfl

/-- Gate 3's bias, laid out as one row, at column h. -/
theorem V_b3 (c : Dev nD) (h : Fin 2048) :
    (V m c main_v10 : S1x2048.Idx → EReal) (ix2 (0 : Fin 1) h) = (m ((c : Thread nD τ).loc main_arg10)) (ix1 h) := by
  have e : (V m c main_v10 : S1x2048.Idx → EReal) = shapeCast S1x2048 (m ((c : Thread nD τ).loc main_arg10)) shapeCasts_S2048_S1x2048 := by
    dsimp only [V, hostOps0]
    after_results
    rfl
  rw [e]
  exact shapeCast_a_1a_apply _ _ 0 h

/-! ## The accumulators along a tile -/

/-- After point n, accumulator 0 holds at (p, q) the first 256 (n mod 16 + 1) terms of gate 0's pre-activation at
    (r, h) = (1024 (n / 64) + p, 512 ((n / 16) mod 4) + q). -/
theorem acc0_sum (c : Dev nD) (n : ℕ) : ∀ (hn : n < cfg0.N) (p : Fin 1024) (q : Fin 512) (r : Fin 4096) (h : Fin 2048),
    r.val = 1024 * (n / 64) + p.val → h.val = 512 * (n / 16 % 4) + q.val →
    (outsAt0 m c n hn).2.2.1 (ix2 p q) = partialSum (Cert.Lstm.term (V m c main_v2) (V m c main_v3) r h) (256 * (n % 16) + 256) := by
  induction n with
  | zero =>
    intro hn p q r h hr hh
    refine (congrFun (acc0_first m c ⟨0, hn⟩ rfl) (ix2 p q)).trans ?_
    refine (pay9_apply (iblk m c 0 ⟨0, hn⟩) (k0_pay4 (F := Ideal)) (iblk m c 1 ⟨0, hn⟩) p q).trans ?_
    exact add_block (V m c main_v2) (V m c main_v3) (iblk m c 0 ⟨0, hn⟩) (iblk m c 1 ⟨0, hn⟩) p q r h (256 * (0 % 16)) (by omega)
      _ ((zero0_apply (ix2 p q)).trans (partialSum_zero _).symm)
      (fun d => blk0_apply m c ⟨0, hn⟩ (ix2 p d) (ix2 r _) hr rfl)
      (fun d => blk1_apply m c ⟨0, hn⟩ (ix2 q d) (ix2 h _) hh rfl)
  | succ n ih =>
    intro hn p q r h hr hh
    have hN : n + 1 < 256 := lt_of_lt_of_eq hn (show cfg0.N = 256 from N_0)
    by_cases h0 : (n + 1) % 16 = 0
    · refine (congrFun (acc0_first m c ⟨n + 1, hn⟩ h0) (ix2 p q)).trans ?_
      refine (pay9_apply (iblk m c 0 ⟨n + 1, hn⟩) (k0_pay4 (F := Ideal)) (iblk m c 1 ⟨n + 1, hn⟩) p q).trans ?_
      exact add_block (V m c main_v2) (V m c main_v3) (iblk m c 0 ⟨n + 1, hn⟩) (iblk m c 1 ⟨n + 1, hn⟩) p q r h (256 * ((n + 1) % 16)) (by omega)
        _ ((zero0_apply (ix2 p q)).trans ((partialSum_zero _).symm.trans (congrArg (partialSum (Cert.Lstm.term (V m c main_v2) (V m c main_v3) r h)) (by omega))))
        (fun d => blk0_apply m c ⟨n + 1, hn⟩ (ix2 p d) (ix2 r _) hr rfl)
        (fun d => blk1_apply m c ⟨n + 1, hn⟩ (ix2 q d) (ix2 h _) hh rfl)
    · refine (congrFun (acc0_succ m c n hn h0) (ix2 p q)).trans ?_
      refine (pay9_apply (iblk m c 0 ⟨n + 1, hn⟩) ((outsAt0 m c n (Nat.lt_of_succ_lt hn)).2.2.1) (iblk m c 1 ⟨n + 1, hn⟩) p q).trans ?_
      exact add_block (V m c main_v2) (V m c main_v3) (iblk m c 0 ⟨n + 1, hn⟩) (iblk m c 1 ⟨n + 1, hn⟩) p q r h (256 * ((n + 1) % 16)) (by omega)
        _ ((ih (Nat.lt_of_succ_lt hn) p q r h (by omega) (by omega)).trans (congrArg (partialSum (Cert.Lstm.term (V m c main_v2) (V m c main_v3) r h)) (by omega)))
        (fun d => blk0_apply m c ⟨n + 1, hn⟩ (ix2 p d) (ix2 r _) hr rfl)
        (fun d => blk1_apply m c ⟨n + 1, hn⟩ (ix2 q d) (ix2 h _) hh rfl)

/-- After the last point of a tile, accumulator 0 holds the whole sum. -/
theorem acc0_full (c : Dev nD) (t : Fin cfg0.N) (h1 : t.val % 16 = 15) (p : Fin 1024) (q : Fin 512) (r : Fin 4096) (h : Fin 2048)
    (hr : r.val = 1024 * (t.val / 64) + p.val) (hh : h.val = 512 * (t.val / 16 % 4) + q.val) :
    (outsAt0 m c t.val t.isLt).2.2.1 (ix2 p q) = ∑ d : Fin 4096, Cert.Lstm.term (V m c main_v2) (V m c main_v3) r h d := by
  rw [acc0_sum m c t.val t.isLt p q r h hr hh, h1]
  exact partialSum_full _

/-- After point n, accumulator 1 holds at (p, q) the first 256 (n mod 16 + 1) terms of gate 1's pre-activation at
    (r, h) = (1024 (n / 64) + p, 512 ((n / 16) mod 4) + q). -/
theorem acc1_sum (c : Dev nD) (n : ℕ) : ∀ (hn : n < cfg0.N) (p : Fin 1024) (q : Fin 512) (r : Fin 4096) (h : Fin 2048),
    r.val = 1024 * (n / 64) + p.val → h.val = 512 * (n / 16 % 4) + q.val →
    (outsAt0 m c n hn).2.2.2.1 (ix2 p q) = partialSum (Cert.Lstm.term (V m c main_v2) (V m c main_v4) r h) (256 * (n % 16) + 256) := by
  induction n with
  | zero =>
    intro hn p q r h hr hh
    refine (congrFun (acc1_first m c ⟨0, hn⟩ rfl) (ix2 p q)).trans ?_
    refine (pay10_apply (iblk m c 0 ⟨0, hn⟩) (k0_pay5 (F := Ideal)) (iblk m c 2 ⟨0, hn⟩) p q).trans ?_
    exact add_block (V m c main_v2) (V m c main_v4) (iblk m c 0 ⟨0, hn⟩) (iblk m c 2 ⟨0, hn⟩) p q r h (256 * (0 % 16)) (by omega)
      _ ((zero1_apply (ix2 p q)).trans (partialSum_zero _).symm)
      (fun d => blk0_apply m c ⟨0, hn⟩ (ix2 p d) (ix2 r _) hr rfl)
      (fun d => blk2_apply m c ⟨0, hn⟩ (ix2 q d) (ix2 h _) hh rfl)
  | succ n ih =>
    intro hn p q r h hr hh
    have hN : n + 1 < 256 := lt_of_lt_of_eq hn (show cfg0.N = 256 from N_0)
    by_cases h0 : (n + 1) % 16 = 0
    · refine (congrFun (acc1_first m c ⟨n + 1, hn⟩ h0) (ix2 p q)).trans ?_
      refine (pay10_apply (iblk m c 0 ⟨n + 1, hn⟩) (k0_pay5 (F := Ideal)) (iblk m c 2 ⟨n + 1, hn⟩) p q).trans ?_
      exact add_block (V m c main_v2) (V m c main_v4) (iblk m c 0 ⟨n + 1, hn⟩) (iblk m c 2 ⟨n + 1, hn⟩) p q r h (256 * ((n + 1) % 16)) (by omega)
        _ ((zero1_apply (ix2 p q)).trans ((partialSum_zero _).symm.trans (congrArg (partialSum (Cert.Lstm.term (V m c main_v2) (V m c main_v4) r h)) (by omega))))
        (fun d => blk0_apply m c ⟨n + 1, hn⟩ (ix2 p d) (ix2 r _) hr rfl)
        (fun d => blk2_apply m c ⟨n + 1, hn⟩ (ix2 q d) (ix2 h _) hh rfl)
    · refine (congrFun (acc1_succ m c n hn h0) (ix2 p q)).trans ?_
      refine (pay10_apply (iblk m c 0 ⟨n + 1, hn⟩) ((outsAt0 m c n (Nat.lt_of_succ_lt hn)).2.2.2.1) (iblk m c 2 ⟨n + 1, hn⟩) p q).trans ?_
      exact add_block (V m c main_v2) (V m c main_v4) (iblk m c 0 ⟨n + 1, hn⟩) (iblk m c 2 ⟨n + 1, hn⟩) p q r h (256 * ((n + 1) % 16)) (by omega)
        _ ((ih (Nat.lt_of_succ_lt hn) p q r h (by omega) (by omega)).trans (congrArg (partialSum (Cert.Lstm.term (V m c main_v2) (V m c main_v4) r h)) (by omega)))
        (fun d => blk0_apply m c ⟨n + 1, hn⟩ (ix2 p d) (ix2 r _) hr rfl)
        (fun d => blk2_apply m c ⟨n + 1, hn⟩ (ix2 q d) (ix2 h _) hh rfl)

/-- After the last point of a tile, accumulator 1 holds the whole sum. -/
theorem acc1_full (c : Dev nD) (t : Fin cfg0.N) (h1 : t.val % 16 = 15) (p : Fin 1024) (q : Fin 512) (r : Fin 4096) (h : Fin 2048)
    (hr : r.val = 1024 * (t.val / 64) + p.val) (hh : h.val = 512 * (t.val / 16 % 4) + q.val) :
    (outsAt0 m c t.val t.isLt).2.2.2.1 (ix2 p q) = ∑ d : Fin 4096, Cert.Lstm.term (V m c main_v2) (V m c main_v4) r h d := by
  rw [acc1_sum m c t.val t.isLt p q r h hr hh, h1]
  exact partialSum_full _

/-- After point n, accumulator 2 holds at (p, q) the first 256 (n mod 16 + 1) terms of gate 2's pre-activation at
    (r, h) = (1024 (n / 64) + p, 512 ((n / 16) mod 4) + q). -/
theorem acc2_sum (c : Dev nD) (n : ℕ) : ∀ (hn : n < cfg0.N) (p : Fin 1024) (q : Fin 512) (r : Fin 4096) (h : Fin 2048),
    r.val = 1024 * (n / 64) + p.val → h.val = 512 * (n / 16 % 4) + q.val →
    (outsAt0 m c n hn).2.2.2.2.1 (ix2 p q) = partialSum (Cert.Lstm.term (V m c main_v2) (V m c main_v5) r h) (256 * (n % 16) + 256) := by
  induction n with
  | zero =>
    intro hn p q r h hr hh
    refine (congrFun (acc2_first m c ⟨0, hn⟩ rfl) (ix2 p q)).trans ?_
    refine (pay11_apply (iblk m c 0 ⟨0, hn⟩) (k0_pay6 (F := Ideal)) (iblk m c 3 ⟨0, hn⟩) p q).trans ?_
    exact add_block (V m c main_v2) (V m c main_v5) (iblk m c 0 ⟨0, hn⟩) (iblk m c 3 ⟨0, hn⟩) p q r h (256 * (0 % 16)) (by omega)
      _ ((zero2_apply (ix2 p q)).trans (partialSum_zero _).symm)
      (fun d => blk0_apply m c ⟨0, hn⟩ (ix2 p d) (ix2 r _) hr rfl)
      (fun d => blk3_apply m c ⟨0, hn⟩ (ix2 q d) (ix2 h _) hh rfl)
  | succ n ih =>
    intro hn p q r h hr hh
    have hN : n + 1 < 256 := lt_of_lt_of_eq hn (show cfg0.N = 256 from N_0)
    by_cases h0 : (n + 1) % 16 = 0
    · refine (congrFun (acc2_first m c ⟨n + 1, hn⟩ h0) (ix2 p q)).trans ?_
      refine (pay11_apply (iblk m c 0 ⟨n + 1, hn⟩) (k0_pay6 (F := Ideal)) (iblk m c 3 ⟨n + 1, hn⟩) p q).trans ?_
      exact add_block (V m c main_v2) (V m c main_v5) (iblk m c 0 ⟨n + 1, hn⟩) (iblk m c 3 ⟨n + 1, hn⟩) p q r h (256 * ((n + 1) % 16)) (by omega)
        _ ((zero2_apply (ix2 p q)).trans ((partialSum_zero _).symm.trans (congrArg (partialSum (Cert.Lstm.term (V m c main_v2) (V m c main_v5) r h)) (by omega))))
        (fun d => blk0_apply m c ⟨n + 1, hn⟩ (ix2 p d) (ix2 r _) hr rfl)
        (fun d => blk3_apply m c ⟨n + 1, hn⟩ (ix2 q d) (ix2 h _) hh rfl)
    · refine (congrFun (acc2_succ m c n hn h0) (ix2 p q)).trans ?_
      refine (pay11_apply (iblk m c 0 ⟨n + 1, hn⟩) ((outsAt0 m c n (Nat.lt_of_succ_lt hn)).2.2.2.2.1) (iblk m c 3 ⟨n + 1, hn⟩) p q).trans ?_
      exact add_block (V m c main_v2) (V m c main_v5) (iblk m c 0 ⟨n + 1, hn⟩) (iblk m c 3 ⟨n + 1, hn⟩) p q r h (256 * ((n + 1) % 16)) (by omega)
        _ ((ih (Nat.lt_of_succ_lt hn) p q r h (by omega) (by omega)).trans (congrArg (partialSum (Cert.Lstm.term (V m c main_v2) (V m c main_v5) r h)) (by omega)))
        (fun d => blk0_apply m c ⟨n + 1, hn⟩ (ix2 p d) (ix2 r _) hr rfl)
        (fun d => blk3_apply m c ⟨n + 1, hn⟩ (ix2 q d) (ix2 h _) hh rfl)

/-- After the last point of a tile, accumulator 2 holds the whole sum. -/
theorem acc2_full (c : Dev nD) (t : Fin cfg0.N) (h1 : t.val % 16 = 15) (p : Fin 1024) (q : Fin 512) (r : Fin 4096) (h : Fin 2048)
    (hr : r.val = 1024 * (t.val / 64) + p.val) (hh : h.val = 512 * (t.val / 16 % 4) + q.val) :
    (outsAt0 m c t.val t.isLt).2.2.2.2.1 (ix2 p q) = ∑ d : Fin 4096, Cert.Lstm.term (V m c main_v2) (V m c main_v5) r h d := by
  rw [acc2_sum m c t.val t.isLt p q r h hr hh, h1]
  exact partialSum_full _

/-- After point n, accumulator 3 holds at (p, q) the first 256 (n mod 16 + 1) terms of gate 3's pre-activation at
    (r, h) = (1024 (n / 64) + p, 512 ((n / 16) mod 4) + q). -/
theorem acc3_sum (c : Dev nD) (n : ℕ) : ∀ (hn : n < cfg0.N) (p : Fin 1024) (q : Fin 512) (r : Fin 4096) (h : Fin 2048),
    r.val = 1024 * (n / 64) + p.val → h.val = 512 * (n / 16 % 4) + q.val →
    (outsAt0 m c n hn).2.2.2.2.2 (ix2 p q) = partialSum (Cert.Lstm.term (V m c main_v2) (V m c main_v6) r h) (256 * (n % 16) + 256) := by
  induction n with
  | zero =>
    intro hn p q r h hr hh
    refine (congrFun (acc3_first m c ⟨0, hn⟩ rfl) (ix2 p q)).trans ?_
    refine (pay1_apply (iblk m c 0 ⟨0, hn⟩) (k0_pay7 (F := Ideal)) (iblk m c 4 ⟨0, hn⟩) p q).trans ?_
    exact add_block (V m c main_v2) (V m c main_v6) (iblk m c 0 ⟨0, hn⟩) (iblk m c 4 ⟨0, hn⟩) p q r h (256 * (0 % 16)) (by omega)
      _ ((zero3_apply (ix2 p q)).trans (partialSum_zero _).symm)
      (fun d => blk0_apply m c ⟨0, hn⟩ (ix2 p d) (ix2 r _) hr rfl)
      (fun d => blk4_apply m c ⟨0, hn⟩ (ix2 q d) (ix2 h _) hh rfl)
  | succ n ih =>
    intro hn p q r h hr hh
    have hN : n + 1 < 256 := lt_of_lt_of_eq hn (show cfg0.N = 256 from N_0)
    by_cases h0 : (n + 1) % 16 = 0
    · refine (congrFun (acc3_first m c ⟨n + 1, hn⟩ h0) (ix2 p q)).trans ?_
      refine (pay1_apply (iblk m c 0 ⟨n + 1, hn⟩) (k0_pay7 (F := Ideal)) (iblk m c 4 ⟨n + 1, hn⟩) p q).trans ?_
      exact add_block (V m c main_v2) (V m c main_v6) (iblk m c 0 ⟨n + 1, hn⟩) (iblk m c 4 ⟨n + 1, hn⟩) p q r h (256 * ((n + 1) % 16)) (by omega)
        _ ((zero3_apply (ix2 p q)).trans ((partialSum_zero _).symm.trans (congrArg (partialSum (Cert.Lstm.term (V m c main_v2) (V m c main_v6) r h)) (by omega))))
        (fun d => blk0_apply m c ⟨n + 1, hn⟩ (ix2 p d) (ix2 r _) hr rfl)
        (fun d => blk4_apply m c ⟨n + 1, hn⟩ (ix2 q d) (ix2 h _) hh rfl)
    · refine (congrFun (acc3_succ m c n hn h0) (ix2 p q)).trans ?_
      refine (pay1_apply (iblk m c 0 ⟨n + 1, hn⟩) ((outsAt0 m c n (Nat.lt_of_succ_lt hn)).2.2.2.2.2) (iblk m c 4 ⟨n + 1, hn⟩) p q).trans ?_
      exact add_block (V m c main_v2) (V m c main_v6) (iblk m c 0 ⟨n + 1, hn⟩) (iblk m c 4 ⟨n + 1, hn⟩) p q r h (256 * ((n + 1) % 16)) (by omega)
        _ ((ih (Nat.lt_of_succ_lt hn) p q r h (by omega) (by omega)).trans (congrArg (partialSum (Cert.Lstm.term (V m c main_v2) (V m c main_v6) r h)) (by omega)))
        (fun d => blk0_apply m c ⟨n + 1, hn⟩ (ix2 p d) (ix2 r _) hr rfl)
        (fun d => blk4_apply m c ⟨n + 1, hn⟩ (ix2 q d) (ix2 h _) hh rfl)

/-- After the last point of a tile, accumulator 3 holds the whole sum. -/
theorem acc3_full (c : Dev nD) (t : Fin cfg0.N) (h1 : t.val % 16 = 15) (p : Fin 1024) (q : Fin 512) (r : Fin 4096) (h : Fin 2048)
    (hr : r.val = 1024 * (t.val / 64) + p.val) (hh : h.val = 512 * (t.val / 16 % 4) + q.val) :
    (outsAt0 m c t.val t.isLt).2.2.2.2.2 (ix2 p q) = ∑ d : Fin 4096, Cert.Lstm.term (V m c main_v2) (V m c main_v6) r h d := by
  rw [acc3_sum m c t.val t.isLt p q r h hr hh, h1]
  exact partialSum_full _

end Cert.KernelIdeal.Cell

end
-- ==== Proof.KernelValue.lean ====
/-
  What the kernel's two result arrays hold after the run.

  The last point of tile (i, j) writes the 1024 x 512 blocks at rows 1024 i .. and columns 512 j .. of the two result
  arrays; by then every accumulator of the tile holds its gate's whole sum, so the blocks are the LSTM step's new hidden
  and cell values at those rows and columns.  The sixteen tiles' blocks tile the 4096 x 2048 arrays, so the arrays end
  holding the step everywhere.
-/
import proofs.«150020_j16269336118035_2_alg».proof.Proof.Sums
import proofs.«150020_j16269336118035_2_alg».proof.Proof.Gen.KernelIdeal.Value
set_option maxRecDepth 16384

noncomputable section

open Idealize.ShloMosaic Idealize.ShloMosaic.TcCoe Idealize.SL.Sem

namespace Cert.KernelIdeal.Cell

open Cert.KernelIdeal Cert.KernelIdeal.Gen Idealize.ShloMosaic.ValueIdx
open Idealize.ShloMosaic.Pipeline (Dat)

variable (m : (ℓ : Loc nD τ sig) → Buf (Elt Ideal) ℓ) (ρ : Dev nD → PrngReg)

/-- The activations: input and previous hidden state side by side. -/
abbrev xh (c : Dev nD) : S4096x4096.Idx → EReal :=
  concatenate S4096x4096 1 [⟨S4096x2048, (m ((c : Thread nD τ).loc main_arg0))⟩, ⟨S4096x2048, (m ((c : Thread nD τ).loc main_arg1))⟩]
    concatenates_S4096x2048_S4096x2048_S4096x4096_d1

/-- The new hidden state of the arguments. -/
abbrev newHidden (c : Dev nD) : Buf (Elt Ideal) ((c : Thread nD τ).loc main_v11_0) :=
  Cert.Lstm.hidden (xh m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg2))

/-- The new cell state of the arguments. -/
abbrev newCell (c : Dev nD) : Buf (Elt Ideal) ((c : Thread nD τ).loc main_v11_1) :=
  Cert.Lstm.cell (xh m c) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg2))

/-- Entry (p, q) of the hidden block the last point of tile (i, j) leaves is the new hidden state at
    (1024 i + p, 512 j + q). -/
theorem hidden_at (c : Dev nD) (t : Fin cfg0.N) (h1 : t.val % 16 = 15) (p : Fin 1024) (q : Fin 512) (r : Fin 4096) (h : Fin 2048)
    (hr : r.val = 1024 * (t.val / 64) + p.val) (hh : h.val = 512 * (t.val / 16 % 4) + q.val) :
    (outsAt0 m c t.val t.isLt).1 (ix2 p q) = newHidden m c (ix2 r h) := by
  refine (congrFun (hidden_last m c t h1) (ix2 p q)).trans ?_
  refine (pay3_apply ((outsAt0 m c t.val t.isLt).2.2.1) (iblk m c 5 t) ((outsAt0 m c t.val t.isLt).2.2.2.1) (iblk m c 6 t) ((outsAt0 m c t.val t.isLt).2.2.2.2.1) (iblk m c 7 t) ((outsAt0 m c t.val t.isLt).2.2.2.2.2) (iblk m c 8 t) (iblk m c 9 t) p q).trans ?_
  rw [acc0_full m c t h1 p q r h hr hh, acc1_full m c t h1 p q r h hr hh, acc2_full m c t h1 p q r h hr hh, acc3_full m c t h1 p q r h hr hh,
    blk5_apply m c t (ix2 (0 : Fin 1) q) (ix2 (0 : Fin 1) h) rfl hh, blk6_apply m c t (ix2 (0 : Fin 1) q) (ix2 (0 : Fin 1) h) rfl hh,
    blk7_apply m c t (ix2 (0 : Fin 1) q) (ix2 (0 : Fin 1) h) rfl hh, blk8_apply m c t (ix2 (0 : Fin 1) q) (ix2 (0 : Fin 1) h) rfl hh,
    blk9_apply m c t (ix2 p q) (ix2 r h) hr hh,
    V_b0 m c h, V_b1 m c h, V_b2 m c h, V_b3 m c h, V_xh m c, V_w0 m c, V_w1 m c, V_w2 m c, V_w3 m c, V_main_arg2 m c]
  rfl

/-- … and of the cell block, the new cell state. -/
theorem cell_at (c : Dev nD) (t : Fin cfg0.N) (h1 : t.val % 16 = 15) (p : Fin 1024) (q : Fin 512) (r : Fin 4096) (h : Fin 2048)
    (hr : r.val = 1024 * (t.val / 64) + p.val) (hh : h.val = 512 * (t.val / 16 % 4) + q.val) :
    (outsAt0 m c t.val t.isLt).2.1 (ix2 p q) = newCell m c (ix2 r h) := by
  refine (congrFun (cell_last m c t h1) (ix2 p q)).trans ?_
  refine (pay2_apply ((outsAt0 m c t.val t.isLt).2.2.1) (iblk m c 5 t) ((outsAt0 m c t.val t.isLt).2.2.2.1) (iblk m c 6 t) ((outsAt0 m c t.val t.isLt).2.2.2.2.2) (iblk m c 8 t) (iblk m c 9 t) p q).trans ?_
  rw [acc0_full m c t h1 p q r h hr hh, acc1_full m c t h1 p q r h hr hh, acc3_full m c t h1 p q r h hr hh,
    blk5_apply m c t (ix2 (0 : Fin 1) q) (ix2 (0 : Fin 1) h) rfl hh, blk6_apply m c t (ix2 (0 : Fin 1) q) (ix2 (0 : Fin 1) h) rfl hh,
    blk8_apply m c t (ix2 (0 : Fin 1) q) (ix2 (0 : Fin 1) h) rfl hh,
    blk9_apply m c t (ix2 p q) (ix2 r h) hr hh,
    V_b0 m c h, V_b1 m c h, V_b3 m c h, V_xh m c, V_w0 m c, V_w1 m c, V_w3 m c, V_main_arg2 m c]
  rfl

/-- The same, for any entry y of the block and any array index I with I = origin + y. -/
theorem hidden_at_idx (c : Dev nD) (t : Fin cfg0.N) (h1 : t.val % 16 = 15) (y : S1024x512.Idx) (I : S4096x2048.Idx)
    (h0 : (I 0).val = 1024 * (t.val / 64) + (y 0).val) (h0' : (I 1).val = 512 * (t.val / 16 % 4) + (y 1).val) :
    (outsAt0 m c t.val t.isLt).1 y = newHidden m c I := by
  obtain ⟨p, q, rfl⟩ : ∃ (p : Fin 1024) (q : Fin 512), y = ix2 p q := ⟨y 0, y 1, eq_ix2 y⟩
  obtain ⟨r, h, rfl⟩ : ∃ (r : Fin 4096) (h : Fin 2048), I = ix2 r h := ⟨I 0, I 1, eq_ix2 I⟩
  exact hidden_at m c t h1 p q r h h0 h0'

theorem cell_at_idx (c : Dev nD) (t : Fin cfg0.N) (h1 : t.val % 16 = 15) (y : S1024x512.Idx) (I : S4096x2048.Idx)
    (h0 : (I 0).val = 1024 * (t.val / 64) + (y 0).val) (h0' : (I 1).val = 512 * (t.val / 16 % 4) + (y 1).val) :
    (outsAt0 m c t.val t.isLt).2.1 y = newCell m c I := by
  obtain ⟨p, q, rfl⟩ : ∃ (p : Fin 1024) (q : Fin 512), y = ix2 p q := ⟨y 0, y 1, eq_ix2 y⟩
  obtain ⟨r, h, rfl⟩ : ∃ (r : Fin 4096) (h : Fin 2048), I = ix2 r h := ⟨I 0, I 1, eq_ix2 I⟩
  exact cell_at m c t h1 p q r h h0 h0'

/-- What the last point of a tile writes back to the hidden array is its block of the step. -/
theorem flushed10_step (c : Dev nD) (t : Fin cfg0.N) (hf : (cfg0.win 10).flush t = true) :
    (dats m 0 c).flushed 10 t = ((cfg0.win 10).blk t).view.read (Elt Ideal) (newHidden m c) := by
  have h1 : t.val % 16 = 15 := (flush0_10 t).mp hf
  rw [Cert.KernelIdeal.Value.flushed10]
  funext y
  refine hidden_at_idx m c t h1 y (((cfg0.win 10).blk t).view.emb y) ?_ ?_
  · show win0_10.index t (0 : Fin 2) * 1024 + 1 * (y 0).val = 1024 * (t.val / 64) + (y 0).val
    rw [(index_o10 t).1]; omega
  · show win0_10.index t (1 : Fin 2) * 512 + 1 * (y 1).val = 512 * (t.val / 16 % 4) + (y 1).val
    rw [(index_o10 t).2]; omega

/-- An entry of the hidden array is in point t's block iff each coordinate is in the block's range. -/
theorem mem_blk10 (t : Fin cfg0.N) (i : S4096x2048.Idx) :
    i ∈ ((cfg0.win 10).blk t).view.set ↔ ∀ a : Fin 2, win0_10.index t a * S1024x512.size a ≤ (i a).val ∧ (i a).val < win0_10.index t a * S1024x512.size a + S1024x512.size a := by
  show i ∈ ((View.whole main_v11_0).slice (win0_10.rect t)).set ↔ _
  rw [View.set_slice_whole, Rect.mem_set_unit]
  exact Iff.rfl

/-- Every entry of the hidden array lies in the block some tile's last point writes back: entry (r, h) in tile
    (r / 1024, h / 512). -/
theorem cover10 (i : S4096x2048.Idx) : ∃ t : Fin cfg0.N, (cfg0.win 10).flush t = true ∧ i ∈ ((cfg0.win 10).blk t).view.set := by
  have hi0 : (i 0).val < 4096 := (i 0).isLt
  have hi1 : (i 1).val < 2048 := (i 1).isLt
  have hN : cfg0.N = 256 := N_0
  refine ⟨⟨64 * ((i 0).val / 1024) + 16 * ((i 1).val / 512) + 15, by rw [hN]; omega⟩, ?_, ?_⟩
  · exact (flush0_10 _).mpr (by show (64 * ((i 0).val / 1024) + 16 * ((i 1).val / 512) + 15) % 16 = 15; omega)
  · rw [mem_blk10]
    intro a
    match a with
    | ⟨0, _⟩ =>
      show win0_10.index _ (0 : Fin 2) * 1024 ≤ (i 0).val ∧ (i 0).val < win0_10.index _ (0 : Fin 2) * 1024 + 1024
      rw [(index_o10 _).1]
      show (64 * ((i 0).val / 1024) + 16 * ((i 1).val / 512) + 15) / 64 * 1024 ≤ (i 0).val ∧ (i 0).val < (64 * ((i 0).val / 1024) + 16 * ((i 1).val / 512) + 15) / 64 * 1024 + 1024
      omega
    | ⟨1, _⟩ =>
      show win0_10.index _ (1 : Fin 2) * 512 ≤ (i 1).val ∧ (i 1).val < win0_10.index _ (1 : Fin 2) * 512 + 512
      rw [(index_o10 _).2]
      show (64 * ((i 0).val / 1024) + 16 * ((i 1).val / 512) + 15) / 16 % 4 * 512 ≤ (i 1).val ∧ (i 1).val < (64 * ((i 0).val / 1024) + 16 * ((i 1).val / 512) + 15) / 16 % 4 * 512 + 512
      omega

/-- So the hidden array ends holding the step's hidden state. -/
theorem final10 (c : Dev nD) : (dats m 0 c).arrAt 10 cfg0.N = newHidden m c :=
  (dats m 0 c).arrAt_eq_of_cover 10 (newHidden m c) (flushed10_step m c) cover10

/-- What the last point of a tile writes back to the cell array is its block of the step. -/
theorem flushed11_step (c : Dev nD) (t : Fin cfg0.N) (hf : (cfg0.win 11).flush t = true) :
    (dats m 0 c).flushed 11 t = ((cfg0.win 11).blk t).view.read (Elt Ideal) (newCell m c) := by
  have h1 : t.val % 16 = 15 := (flush0_11 t).mp hf
  rw [Cert.KernelIdeal.Value.flushed11]
  funext y
  refine cell_at_idx m c t h1 y (((cfg0.win 11).blk t).view.emb y) ?_ ?_
  · show win0_11.index t (0 : Fin 2) * 1024 + 1 * (y 0).val = 1024 * (t.val / 64) + (y 0).val
    rw [(index_o11 t).1]; omega
  · show win0_11.index t (1 : Fin 2) * 512 + 1 * (y 1).val = 512 * (t.val / 16 % 4) + (y 1).val
    rw [(index_o11 t).2]; omega

/-- An entry of the cell array is in point t's block iff each coordinate is in the block's range. -/
theorem mem_blk11 (t : Fin cfg0.N) (i : S4096x2048.Idx) :
    i ∈ ((cfg0.win 11).blk t).view.set ↔ ∀ a : Fin 2, win0_11.index t a * S1024x512.size a ≤ (i a).val ∧ (i a).val < win0_11.index t a * S1024x512.size a + S1024x512.size a := by
  show i ∈ ((View.whole main_v11_1).slice (win0_11.rect t)).set ↔ _
  rw [View.set_slice_whole, Rect.mem_set_unit]
  exact Iff.rfl

/-- Every entry of the cell array lies in the block some tile's last point writes back: entry (r, h) in tile
    (r / 1024, h / 512). -/
theorem cover11 (i : S4096x2048.Idx) : ∃ t : Fin cfg0.N, (cfg0.win 11).flush t = true ∧ i ∈ ((cfg0.win 11).blk t).view.set := by
  have hi0 : (i 0).val < 4096 := (i 0).isLt
  have hi1 : (i 1).val < 2048 := (i 1).isLt
  have hN : cfg0.N = 256 := N_0
  refine ⟨⟨64 * ((i 0).val / 1024) + 16 * ((i 1).val / 512) + 15, by rw [hN]; omega⟩, ?_, ?_⟩
  · exact (flush0_11 _).mpr (by show (64 * ((i 0).val / 1024) + 16 * ((i 1).val / 512) + 15) % 16 = 15; omega)
  · rw [mem_blk11]
    intro a
    match a with
    | ⟨0, _⟩ =>
      show win0_11.index _ (0 : Fin 2) * 1024 ≤ (i 0).val ∧ (i 0).val < win0_11.index _ (0 : Fin 2) * 1024 + 1024
      rw [(index_o11 _).1]
      show (64 * ((i 0).val / 1024) + 16 * ((i 1).val / 512) + 15) / 64 * 1024 ≤ (i 0).val ∧ (i 0).val < (64 * ((i 0).val / 1024) + 16 * ((i 1).val / 512) + 15) / 64 * 1024 + 1024
      omega
    | ⟨1, _⟩ =>
      show win0_11.index _ (1 : Fin 2) * 512 ≤ (i 1).val ∧ (i 1).val < win0_11.index _ (1 : Fin 2) * 512 + 512
      rw [(index_o11 _).2]
      show (64 * ((i 0).val / 1024) + 16 * ((i 1).val / 512) + 15) / 16 % 4 * 512 ≤ (i 1).val ∧ (i 1).val < (64 * ((i 0).val / 1024) + 16 * ((i 1).val / 512) + 15) / 16 % 4 * 512 + 512
      omega

/-- So the cell array ends holding the step's cell state. -/
theorem final11 (c : Dev nD) : (dats m 0 c).arrAt 11 cfg0.N = newCell m c :=
  (dats m 0 c).arrAt_eq_of_cover 11 (newCell m c) (flushed11_step m c) cover11

/-- The kernel's run: both result arrays at the step of the arguments, the arguments unchanged. -/
theorem run : θ_run defs (onTc (τ := τ) (main (F := Ideal))) ⟨m, fun _ => 0, ρ⟩ fun r => ∀ c : Dev nD,
      r.2.mem ((c : Thread nD τ).loc main_v11_0) = newHidden m c
      ∧ r.2.mem ((c : Thread nD τ).loc main_v11_1) = newCell m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final10 m c), (h c).2.1.trans (final11 m c), (h c).2.2⟩)
    (Cert.KernelIdeal.Value.run_blocks m ρ)

end Cert.KernelIdeal.Cell

end
-- ==== Proof.RefPre.lean ====
/-
  The reference computes one LSTM step entry by entry.

  The reference joins the four weight matrices into one 8192 x 4096 matrix (gate g occupies rows 2048 g to
  2048 g + 2047), takes ONE product of the activations with its transpose, adds the joined bias and cuts the result
  back into four column bands.  Column 2048 g + h of that product is therefore row r of the activations against row
  h of gate g's own weights, plus gate g's own bias at h: the gate's pre-activation.  The logistic function is
  spelt 1 / (1 + exp(-z)) over arrays that hold the number one everywhere.
-/
import proofs.«150020_j16269336118035_2_alg».proof.Proof.Gen.ReferenceIdeal.Read
import proofs.«150020_j16269336118035_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- Column 2048 k + h of the joined pre-activations, at row r, is gate k's pre-activation at (r, h): W and b are the
    k-th of the four weight matrices and of the four biases. -/
theorem pre_of_piece (x0 x1 : (⟨S4096x2048, .f32⟩ : BufTy).Contents (Elt Ideal))
    (x3 : (⟨S2048x4096, .f32⟩ : BufTy).Contents (Elt Ideal)) (x4 : (⟨S2048, .f32⟩ : BufTy).Contents (Elt Ideal))
    (x5 : (⟨S2048x4096, .f32⟩ : BufTy).Contents (Elt Ideal)) (x6 : (⟨S2048, .f32⟩ : BufTy).Contents (Elt Ideal))
    (x7 : (⟨S2048x4096, .f32⟩ : BufTy).Contents (Elt Ideal)) (x8 : (⟨S2048, .f32⟩ : BufTy).Contents (Elt Ideal))
    (x9 : (⟨S2048x4096, .f32⟩ : BufTy).Contents (Elt Ideal)) (x10 : (⟨S2048, .f32⟩ : BufTy).Contents (Elt Ideal))
    (k : Nat) (hk : k < 4) (W : S2048x4096.Idx → EReal) (b : S2048.Idx → EReal)
    (hW : ([⟨S2048x4096, x3⟩, ⟨S2048x4096, x5⟩, ⟨S2048x4096, x7⟩, ⟨S2048x4096, x9⟩] : List ((s : Shape) × (s.Idx → EReal)))[k]'hk
      = ⟨S2048x4096, W⟩)
    (hb : ([⟨S2048, x4⟩, ⟨S2048, x6⟩, ⟨S2048, x8⟩, ⟨S2048, x10⟩] : List ((s : Shape) × (s.Idx → EReal)))[k]'hk = ⟨S2048, b⟩)
    (hpW : (((([⟨S2048x4096, x3⟩, ⟨S2048x4096, x5⟩, ⟨S2048x4096, x7⟩, ⟨S2048x4096, x9⟩] : List ((s : Shape) × (s.Idx → EReal))).take k).map (·.1)).map
      (fun s => if h : s.rank = S8192x4096.rank then s.size ((0 : Fin S8192x4096.rank).cast h.symm) else 0)).sum = 2048 * k)
    (hpb : (((([⟨S2048, x4⟩, ⟨S2048, x6⟩, ⟨S2048, x8⟩, ⟨S2048, x10⟩] : List ((s : Shape) × (s.Idx → EReal))).take k).map (·.1)).map
      (fun s => if h : s.rank = S8192.rank then s.size ((0 : Fin S8192.rank).cast h.symm) else 0)).sum = 2048 * k)
    (I : S4096x8192.Idx) (r : Fin 4096) (h : Fin 2048) (hr : (I 0).val = r.val) (hh : (I 1).val = 2048 * k + h.val) :
    val_main_v7 (F := Ideal) x0 x1 x3 x4 x5 x6 x7 x8 x9 x10 I = Cert.Lstm.preAct (val_main_v0 (F := Ideal) x0 x1) W b r h := by
  rw [val_main_v7_apply, val_main_v4_apply, val_main_v6_apply, val_main_v5_apply]
  unfold Cert.Lstm.preAct Cert.Lstm.term
  rw [Ideal.addf_def]
  congr 1
  · refine Finset.sum_congr rfl fun d _ => ?_
    refine congrArg₂ (fun a b : EReal => a * b) (congrArg (val_main_v0 (F := Ideal) x0 x1) ?_) ?_
    · funext a
      apply Fin.ext
      match a with
      | ⟨0, _⟩ => exact hr
      | ⟨1, _⟩ => rfl
    · rw [val_main_v3_apply]
      unfold val_main_v1
      refine concatenate_apply_piece (0 : Fin S8192x4096.rank) ([⟨S2048x4096, x3⟩, ⟨S2048x4096, x5⟩, ⟨S2048x4096, x7⟩, ⟨S2048x4096, x9⟩] : List ((s : Shape) × (s.Idx → EReal))) _ _ k hk S2048x4096 W hW rfl (2048 * k) hpW (ix2 h d) ?_ ?_
      · intro bb hbb
        match bb with
        | ⟨0, _⟩ => exact absurd rfl hbb
        | ⟨1, _⟩ => rfl
      · show 2048 * k + h.val = (I 1).val
        exact hh.symm
  · unfold val_main_v2
    refine concatenate_apply_piece (0 : Fin S8192.rank) ([⟨S2048, x4⟩, ⟨S2048, x6⟩, ⟨S2048, x8⟩, ⟨S2048, x10⟩] : List ((s : Shape) × (s.Idx → EReal))) _ _ k hk S2048 b hb rfl (2048 * k) hpb (ix1 h) ?_ ?_
    · intro bb hbb
      match bb with
      | ⟨0, _⟩ => exact absurd rfl hbb
    · show 2048 * k + h.val = (I 1).val
      exact hh.symm

end Cert.ReferenceIdeal.RefValue

end
-- ==== Proof.RefValue.lean ====
/-
  The reference's two results are the LSTM step of its arguments.

  Reading the reference one operation at a time: the four column bands of the joined pre-activations are the four
  gates' pre-activations; the input, forget and output bands go through 1 / (1 + exp(-z)), the candidate band through
  tanh; the new cell state is  forget * old + input * candidate  and the new hidden state  output * tanh(new cell).
-/
import proofs.«150020_j16269336118035_2_alg».proof.Proof.RefPre

noncomputable section

namespace Cert.ReferenceIdeal.RefValue

open Cert.ReferenceIdeal Cert.ReferenceIdeal.Gen Cert.ReferenceIdeal.Read Idealize.ShloMosaic Idealize.ShloMosaic.ValueIdx

/-- The reference's second result is the new cell state. -/
theorem cell_eq (x0 x1 x2 : (⟨S4096x2048, .f32⟩ : BufTy).Contents (Elt Ideal))
    (x3 : (⟨S2048x4096, .f32⟩ : BufTy).Contents (Elt Ideal)) (x4 : (⟨S2048, .f32⟩ : BufTy).Contents (Elt Ideal))
    (x5 : (⟨S2048x4096, .f32⟩ : BufTy).Contents (Elt Ideal)) (x6 : (⟨S2048, .f32⟩ : BufTy).Contents (Elt Ideal))
    (x7 : (⟨S2048x4096, .f32⟩ : BufTy).Contents (Elt Ideal)) (x8 : (⟨S2048, .f32⟩ : BufTy).Contents (Elt Ideal))
    (x9 : (⟨S2048x4096, .f32⟩ : BufTy).Contents (Elt Ideal)) (x10 : (⟨S2048, .f32⟩ : BufTy).Contents (Elt Ideal)) :
    val_main_v33 (F := Ideal) x0 x1 x2 x3 x4 x5 x6 x7 x8 x9 x10
      = Cert.Lstm.cell (val_main_v0 (F := Ideal) x0 x1) x3 x4 x5 x6 x9 x10 x2 := by
  funext j
  simp only [val_main_v33_apply, val_main_v31_apply, val_main_v32_apply, val_main_v23_apply, val_main_v22_apply, val_main_cst_2_apply, val_main_v21_apply, val_main_v20_apply, val_main_cst_1_apply, val_main_v19_apply, val_main_v18_apply, val_main_v9_apply, val_main_v17_apply, val_main_v16_apply, val_main_cst_0_apply, val_main_v15_apply, val_main_v14_apply, val_main_cst_apply, val_main_v13_apply, val_main_v12_apply, val_main_v8_apply, val_main_v30_apply, val_main_v11_apply]
  rw [pre_of_piece x0 x1 x3 x4 x5 x6 x7 x8 x9 x10 0 (by decide) x3 x4 rfl rfl rfl rfl (idx_main_v8 j) (j 0) (j 1) rfl (by show (j 1).val = 2048 * 0 + (j 1).val; omega),
    pre_of_piece x0 x1 x3 x4 x5 x6 x7 x8 x9 x10 1 (by decide) x5 x6 rfl rfl rfl rfl (idx_main_v9 j) (j 0) (j 1) rfl (by show 2048 + (j 1).val = 2048 * 1 + (j 1).val; omega),
    pre_of_piece x0 x1 x3 x4 x5 x6 x7 x8 x9 x10 3 (by decide) x9 x10 rfl rfl rfl rfl (idx_main_v11 j) (j 0) (j 1) rfl (by show 6144 + (j 1).val = 2048 * 3 + (j 1).val; omega)]
  simp only [Ideal.addf_def, Ideal.mulf_def, Ideal.hostDivf_def, Ideal.hostNegf_def, Ideal.negf_def, Ideal.hostUnary_exp_def,
    Ideal.hostUnary_tanh_def, Ideal.ofBits_def, Cert.Lstm.logistic_spelt]
  rfl

/-- The reference's first result is the new hidden state. -/
theorem hidden_eq (x0 x1 x2 : (⟨S4096x2048, .f32⟩ : BufTy).Contents (Elt Ideal))
    (x3 : (⟨S2048x4096, .f32⟩ : BufTy).Contents (Elt Ideal)) (x4 : (⟨S2048, .f32⟩ : BufTy).Contents (Elt Ideal))
    (x5 : (⟨S2048x4096, .f32⟩ : BufTy).Contents (Elt Ideal)) (x6 : (⟨S2048, .f32⟩ : BufTy).Contents (Elt Ideal))
    (x7 : (⟨S2048x4096, .f32⟩ : BufTy).Contents (Elt Ideal)) (x8 : (⟨S2048, .f32⟩ : BufTy).Contents (Elt Ideal))
    (x9 : (⟨S2048x4096, .f32⟩ : BufTy).Contents (Elt Ideal)) (x10 : (⟨S2048, .f32⟩ : BufTy).Contents (Elt Ideal)) :
    val_main_v35 (F := Ideal) x0 x1 x2 x3 x4 x5 x6 x7 x8 x9 x10
      = Cert.Lstm.hidden (val_main_v0 (F := Ideal) x0 x1) x3 x4 x5 x6 x7 x8 x9 x10 x2 := by
  funext j
  simp only [val_main_v35_apply, val_main_v29_apply, val_main_v28_apply, val_main_cst_4_apply, val_main_v27_apply, val_main_v26_apply, val_main_cst_3_apply, val_main_v25_apply, val_main_v24_apply, val_main_v10_apply, val_main_v34_apply, val_main_v33_apply, val_main_v31_apply, val_main_v32_apply, val_main_v23_apply, val_main_v22_apply, val_main_cst_2_apply, val_main_v21_apply, val_main_v20_apply, val_main_cst_1_apply, val_main_v19_apply, val_main_v18_apply, val_main_v9_apply, val_main_v17_apply, val_main_v16_apply, val_main_cst_0_apply, val_main_v15_apply, val_main_v14_apply, val_main_cst_apply, val_main_v13_apply, val_main_v12_apply, val_main_v8_apply, val_main_v30_apply, val_main_v11_apply]
  rw [pre_of_piece x0 x1 x3 x4 x5 x6 x7 x8 x9 x10 0 (by decide) x3 x4 rfl rfl rfl rfl (idx_main_v8 j) (j 0) (j 1) rfl (by show (j 1).val = 2048 * 0 + (j 1).val; omega),
    pre_of_piece x0 x1 x3 x4 x5 x6 x7 x8 x9 x10 1 (by decide) x5 x6 rfl rfl rfl rfl (idx_main_v9 j) (j 0) (j 1) rfl (by show 2048 + (j 1).val = 2048 * 1 + (j 1).val; omega),
    pre_of_piece x0 x1 x3 x4 x5 x6 x7 x8 x9 x10 2 (by decide) x7 x8 rfl rfl rfl rfl (idx_main_v10 j) (j 0) (j 1) rfl (by show 4096 + (j 1).val = 2048 * 2 + (j 1).val; omega),
    pre_of_piece x0 x1 x3 x4 x5 x6 x7 x8 x9 x10 3 (by decide) x9 x10 rfl rfl rfl rfl (idx_main_v11 j) (j 0) (j 1) rfl (by show 6144 + (j 1).val = 2048 * 3 + (j 1).val; omega)]
  simp only [Ideal.addf_def, Ideal.mulf_def, Ideal.hostDivf_def, Ideal.hostNegf_def, Ideal.negf_def, Ideal.hostUnary_exp_def,
    Ideal.hostUnary_tanh_def, Ideal.ofBits_def, Cert.Lstm.logistic_spelt]
  rfl

end Cert.ReferenceIdeal.RefValue

end
-- ==== Proof.lean ====
/-
  The kernel and its reference compute the same LSTM step.

  The kernel tiles the batch rows and the hidden units, and for each tile accumulates the four gates' products over
  sixteen blocks of 256 columns, starting from zero; the reference forms each gate's product in one sum over all
  4096 columns (through one joined product).  Over the extended reals a finite sum may be taken in any grouping, so
  each accumulator ends at the reference's sum, entry by entry, with no assumption on the entries; the bias, the
  logistic function (the kernel's single operation and the reference's 1 / (1 + exp(-z)) are one function), tanh and
  the cell and hidden updates then apply to equal numbers.  The kernel's change of format of its operands is the
  identity at exact values.  The three frames are the generated ones; nothing was rewritten on the way to the
  idealized kernel, so that claim holds trivially.
-/
import proofs.«150020_j16269336118035_2_alg».proof.Defs
import proofs.«150020_j16269336118035_2_alg».proof.Proof.Gen.Kernel
import proofs.«150020_j16269336118035_2_alg».proof.Proof.Gen.Kernel.Skeleton
import proofs.«150020_j16269336118035_2_alg».proof.Proof.Gen.Kernel.Launch
import proofs.«150020_j16269336118035_2_alg».proof.Proof.Gen.Kernel.Points
import proofs.«150020_j16269336118035_2_alg».proof.Proof.Gen.Kernel.Frame
import proofs.«150020_j16269336118035_2_alg».proof.Proof.Gen.KernelIdeal
import proofs.«150020_j16269336118035_2_alg».proof.Proof.Gen.KernelIdeal.Skeleton
import proofs.«150020_j16269336118035_2_alg».proof.Proof.Gen.KernelIdeal.Launch
import proofs.«150020_j16269336118035_2_alg».proof.Proof.Gen.KernelIdeal.Points
import proofs.«150020_j16269336118035_2_alg».proof.Proof.Gen.KernelIdeal.Frame
import proofs.«150020_j16269336118035_2_alg».proof.Proof.Gen.ReferenceIdeal
import proofs.«150020_j16269336118035_2_alg».proof.Proof.Gen.Pre_finite_inputs
import proofs.«150020_j16269336118035_2_alg».proof.Proof.Gen.KernelIdeal.Value
import proofs.«150020_j16269336118035_2_alg».proof.Proof.Gen.ReferenceIdeal.Run
import proofs.«150020_j16269336118035_2_alg».proof.Proof.Gen.ReferenceIdeal.Read
import proofs.«150020_j16269336118035_2_alg».proof.Proof.KernelValue
import proofs.«150020_j16269336118035_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the LSTM step of arguments that agree. -/
theorem algebraic : Cert.algebraic_KernelIdeal_ReferenceIdeal := by
  intro m ρ m' ρ' _ hagree
  refine ⟨fun c => Cert.KernelIdeal.Cell.newHidden m c, fun c => Cert.KernelIdeal.Cell.newCell m c,
    Cert.KernelIdeal.Cell.run m ρ, ?_⟩
  refine (θ_run Cert.ReferenceIdeal.defs _ _).mono (fun r h c => ⟨?_, ?_, (h c).2.2⟩)
    (Cert.ReferenceIdeal.Value.run (F := Ideal) m' ρ')
  · obtain ⟨a0, a1, a2, a3, a4, a5, a6, a7, a8, a9, a10⟩ := hagree c
    rw [(h c).1, Cert.ReferenceIdeal.Read.val_main_v35_eq, Cert.ReferenceIdeal.RefValue.hidden_eq,
      a0, a1, a2, a3, a4, a5, a6, a7, a8, a9, a10]
    rfl
  · obtain ⟨a0, a1, a2, a3, a4, a5, a6, a7, a8, a9, a10⟩ := hagree c
    refine (h c).2.1.trans ?_
    refine (Cert.ReferenceIdeal.RefValue.cell_eq _ _ _ _ _ _ _ _ _ _ _).trans ?_
    rw [a0, a1, a2, a3, a4, a5, a6, a9, a10]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
